-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S1x3072 : Shape := ⟨2, ![1, 3072]⟩
abbrev S1x1024 : Shape := ⟨2, ![1, 1024]⟩
abbrev S2x16x2048x64 : Shape := ⟨4, ![2, 16, 2048, 64]⟩
abbrev S1x512x1024 : Shape := ⟨3, ![1, 512, 1024]⟩
abbrev S1x16x512x64 : Shape := ⟨4, ![1, 16, 512, 64]⟩
abbrev S512x1024 : Shape := ⟨2, ![512, 1024]⟩
abbrev S512x3072 : Shape := ⟨2, ![512, 3072]⟩
abbrev S512x16x192 : Shape := ⟨3, ![512, 16, 192]⟩
abbrev S16x512x192 : Shape := ⟨3, ![16, 512, 192]⟩
abbrev S16x512x64 : Shape := ⟨3, ![16, 512, 64]⟩
abbrev S1x1x512x64 : Shape := ⟨4, ![1, 1, 512, 64]⟩
abbrev S1x1x2048x64 : Shape := ⟨4, ![1, 1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S512x16x64 : Shape := ⟨3, ![512, 16, 64]⟩

abbrev nBuf : Space → Nat
  | .hbm => 16
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .f32⟩
  | .hbm, ⟨6, _⟩ => ⟨S1024x3072, .bf16⟩
  | .hbm, ⟨7, _⟩ => ⟨S1x3072, .f32⟩
  | .hbm, ⟨8, _⟩ => ⟨S1024x1024, .f32⟩
  | .hbm, ⟨9, _⟩ => ⟨S1024x1024, .bf16⟩
  | .hbm, ⟨10, _⟩ => ⟨S1x1024, .f32⟩
  | .hbm, ⟨11, _⟩ => ⟨S2x16x2048x64, .bf16⟩
  | .hbm, ⟨12, _⟩ => ⟨S2x16x2048x64, .bf16⟩
  | .hbm, ⟨13, _⟩ => ⟨S2x16x2048x64, .bf16⟩
  | .hbm, ⟨14, _⟩ => ⟨S2x16x2048x64, .bf16⟩
  | .hbm, ⟨15, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x3072, .bf16⟩
  | .local _ .vmem, ⟨3, _⟩ => ⟨S1x3072, .f32⟩
  | .local _ .vmem, ⟨4, _⟩ => ⟨S1x16x512x64, .bf16⟩
  | .local _ .vmem, ⟨5, _⟩ => ⟨S1x16x512x64, .bf16⟩
  | .local _ .vmem, ⟨6, _⟩ => ⟨S1x16x512x64, .bf16⟩
  | .local _ .vmem, ⟨7, _⟩ => ⟨S1x16x512x64, .bf16⟩
  | .local _ .vmem, ⟨8, _⟩ => ⟨S1x16x512x64, .bf16⟩
  | .local _ .vmem, ⟨9, _⟩ => ⟨S1x16x512x64, .bf16⟩
  | .local _ .vmem, ⟨10, _⟩ => ⟨S1x1x512x64, .bf16⟩
  | .local _ .vmem, ⟨11, _⟩ => ⟨S1x1x512x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x2048x64, .bf16⟩
  | .local _ .vmem, ⟨15, _⟩ => ⟨S1x1x2048x64, .bf16⟩
  | .local _ .vmem, ⟨16, _⟩ => ⟨S1x1x512x64, .bf16⟩
  | .local _ .vmem, ⟨17, _⟩ => ⟨S1x1x512x64, .bf16⟩
  | .local _ .vmem, ⟨18, _⟩ => ⟨S1x16x512x64, .bf16⟩
  | .local _ .vmem, ⟨19, _⟩ => ⟨S1x16x512x64, .bf16⟩
  | .local _ .vmem, ⟨20, _⟩ => ⟨S1024x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨3, ![2, 16, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨2, ![2, 4], ![false, false]⟩

def cc2_transform_0 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x16x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  transposes_S3072x1024_S1024x3072_1_0 : S3072x1024.Transposes [1, 0] S1024x3072
  bitsLt_bf16_f32 : FTy.bits .bf16 < FTy.bits .f32
  shapeCasts_S3072_S1x3072 : S3072.ShapeCasts S1x3072
  transposes_S1024x1024_S1024x1024_1_0 : S1024x1024.Transposes [1, 0] S1024x1024
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  shapeCasts_S512x3072_S512x16x192 : S512x3072.ShapeCasts S512x16x192
  transposes_S512x16x192_p1_0_2_S16x512x192 : S512x16x192.Transposes [1, 0, 2] S16x512x192
  slices_S16x512x192_o0_0_0_S16x512x64 : S16x512x192.Slices ![0, 0, 0] S16x512x64
  inb_S1x16x512x64_S1x16x512x64_0_0_0_0 : ∀ a, (![0, 0, 0, 0] : Fin 4 → Nat) a + S1x16x512x64.size a ≤ S1x16x512x64.size a
  h_S1x16x512x64 : 0 < S1x16x512x64.numel
  shapeCasts_S1x16x512x64_S16x512x64 : S1x16x512x64.ShapeCasts S16x512x64
  shapeCasts_S16x512x64_S1x16x512x64 : S16x512x64.ShapeCasts S1x16x512x64
  packedbf16_S1x16x512x64_S1x16x512x64_0_0_0_0 : (Rect.unit (s := S1x16x512x64) ![0, 0, 0, 0] S1x16x512x64.size inb_S1x16x512x64_S1x16x512x64_0_0_0_0).PackedRows (EltTy.packing .bf16)
  slices_S16x512x192_o0_0_64_S16x512x64 : S16x512x192.Slices ![0, 0, 64] S16x512x64
  slices_S16x512x192_o0_0_128_S16x512x64 : S16x512x192.Slices ![0, 0, 128] S16x512x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  transposes_S16x512x64_p1_0_2_S512x16x64 : S16x512x64.Transposes [1, 0, 2] S512x16x64
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S2x2048x1024.size a
  hwx0_0 : ∀ i : grid0.Coords, EltTy.bits .f32 = 32 ∨ (Rect.block (s := S2x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x512x64.size a ≤ S2x16x2048x64.size a
  hwx0_3 : ∀ i : grid0.Coords, EltTy.bits .bf16 = 32 ∨ (Rect.block (s := S2x16x2048x64) S1x16x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x64.size a ≤ S2x16x2048x64.size a
  hwx0_4 : ∀ i : grid0.Coords, EltTy.bits .bf16 = 32 ∨ (Rect.block (s := S2x16x2048x64) S1x16x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x16x512x64.size a ≤ S2x16x2048x64.size a
  hwx0_5 : ∀ i : grid0.Coords, EltTy.bits .bf16 = 32 ∨ (Rect.block (s := S2x16x2048x64) S1x16x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x16x2048x64.size a
  hwx1_0 : ∀ i : grid1.Coords, EltTy.bits .bf16 = 32 ∨ (Rect.block (s := S2x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x64.size a ≤ S2x16x2048x64.size a
  hwx1_3 : ∀ i : grid1.Coords, EltTy.bits .bf16 = 32 ∨ (Rect.block (s := S2x16x2048x64) S1x1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x512x64.size a ≤ S2x16x2048x64.size a
  hwx2_0 : ∀ i : grid2.Coords, EltTy.bits .bf16 = 32 ∨ (Rect.block (s := S2x16x2048x64) S1x16x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S2x2048x1024.size a
  hwx2_3 : ∀ i : grid2.Coords, EltTy.bits .f32 = 32 ∨ (Rect.block (s := S2x2048x1024) S1x512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S1x16x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S1x16x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S1x16x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6_0) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1x16x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x16x192 : Shape := ⟨4, ![2, 2048, 16, 192]⟩
abbrev S2x16x2048x192 : Shape := ⟨4, ![2, 16, 2048, 192]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x16x192, .f32⟩
  | .hbm, ⟨10, _⟩ => ⟨S2x16x2048x192, .f32⟩
  | .hbm, ⟨11, _⟩ => ⟨S2x16x2048x64, .f32⟩
  | .hbm, ⟨12, _⟩ => ⟨S2x16x2048x64, .f32⟩
  | .hbm, ⟨13, _⟩ => ⟨S2x16x2048x64, .f32⟩
  | .hbm, ⟨14, _⟩ => ⟨S2x16x2048x2048, .f32⟩
  | .hbm, ⟨15, _⟩ => ⟨S_, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x16x192 : S2x2048x3072.ShapeCasts S2x2048x16x192
  transposes_S2x2048x16x192_S2x16x2048x192_0_2_1_3 : S2x2048x16x192.Transposes [0, 2, 1, 3] S2x16x2048x192
  slices_S2x16x2048x192_S2x16x2048x64_0_0_0_0 : S2x16x2048x192.Slices ![0, 0, 0, 0] S2x16x2048x64
  slices_S2x16x2048x192_S2x16x2048x64_0_0_0_64 : S2x16x2048x192.Slices ![0, 0, 0, 64] S2x16x2048x64
  slices_S2x16x2048x192_S2x16x2048x64_0_0_0_128 : S2x16x2048x192.Slices ![0, 0, 0, 128] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KernelRun.lean ====
/-
  The whole program's run with its result named.

  The program is three kernels after a stretch of host operations; the buffer contents at each boundary are a fold from
  the launch memory, and after the last kernel every unscoped buffer holds the last boundary's contents. Read at the
  result's buffer this gives the result array — the last kernel's output array after its write-backs — beside the
  arguments, which end as launched.
-/
import proofs.«127646_j18081812316199_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, with the result's buffer at the last boundary's contents
    and the arguments as launched. -/
theorem run_named : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Whole

end
-- ==== Proof.Spec.lean ====
/-
  Multi-head attention on the extended reals, index by index.

  For an input `x : [2, 2048, 1024]`, a packed projection `w : [3072, 1024]`, `bq : [3072]`, an output projection
  `wo : [1024, 1024]`, `bo : [1024]`, sixteen heads of width 64:

  * the packed projection at batch `b`, position `s`, column `o` is `∑ i, x (b, s, i) · w (o, i) + bq o`; head `h`
    owns the 192 columns from `h · 192`, its query the first 64 of them, its key the next 64, its value the last 64;
  * a query row against all 2048 keys of its head gives the scores `(∑ d, q d · k_j d) · 1/8`; the row's weights are
    `exp (score_j - max)` divided by their sum; the attended value at coordinate `d` is `∑ j, weight_j · v_j d`;
  * the heads are laid side by side (`e = h · 64 + d`) and projected: `∑ e, a (b, e / 64, s, e % 64) · wo (o, e) + bo o`.

  The literals stay as the words the programs print: the scale `0x3E000000` (one eighth) and the maximum's start
  `0xFF800000` (the bottom of the order).
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨3, ![2, 2048, 1024]⟩
abbrev SW : Shape := ⟨2, ![3072, 1024]⟩
abbrev SB : Shape := ⟨1, ![3072]⟩
abbrev SWo : Shape := ⟨2, ![1024, 1024]⟩
abbrev SBo : Shape := ⟨1, ![1024]⟩
abbrev SH : Shape := ⟨4, ![2, 16, 2048, 64]⟩

/-- The column of the packed projection that holds coordinate `d` of head `h`'s part at offset `off` (0 the query,
    64 the key, 128 the value). -/
def col (off : ℕ) (hoff : off + 64 ≤ 192) (h : Fin 16) (d : Fin 64) : Fin 3072 :=
  ⟨h.val * 192 + off + d.val, by have := h.isLt; have := d.isLt; omega⟩

/-- The packed projection at `(b, s, o)`. -/
def proj (x : SX.Idx → EReal) (w : SW.Idx → EReal) (bq : SB.Idx → EReal) (b : Fin 2) (s : Fin 2048) (o : Fin 3072) : EReal :=
  (∑ i : Fin 1024, x (ix3 b s i) * w (ix2 o i)) + bq (ix1 o)

/-- One part (query, key or value by `off`) of every head, as a `[2, 16, 2048, 64]` array. -/
def headArr (off : ℕ) (hoff : off + 64 ≤ 192) (x : SX.Idx → EReal) (w : SW.Idx → EReal) (bq : SB.Idx → EReal) :
    SH.Idx → EReal :=
  fun j => proj x w bq ⟨(j 0).val, (j 0).isLt⟩ ⟨(j 2).val, (j 2).isLt⟩
    (col off hoff ⟨(j 1).val, (j 1).isLt⟩ ⟨(j 3).val, (j 3).isLt⟩)

/-- A query row's score against key `j`: the dot product scaled by one eighth. -/
def score (qf : Fin 64 → EReal) (kf : Fin 2048 → Fin 64 → EReal) (j : Fin 2048) : EReal :=
  (∑ d : Fin 64, qf d * kf j d) * Ideal.ofBits .f32 0x3E000000#32

/-- The row's largest score, folded from the bottom of the order. -/
def rowMax (qf : Fin 64 → EReal) (kf : Fin 2048 → Fin 64 → EReal) : EReal :=
  (Finset.univ : Finset (Fin 2048)).fold max (Ideal.ofBits .f32 0xFF800000#32) (fun j => score qf kf j)

/-- The exponential of a score below the row's maximum. -/
def expo (qf : Fin 64 → EReal) (kf : Fin 2048 → Fin 64 → EReal) (j : Fin 2048) : EReal :=
  Ideal.exp (score qf kf j - rowMax qf kf)

/-- The row's sum of exponentials. -/
def denom (qf : Fin 64 → EReal) (kf : Fin 2048 → Fin 64 → EReal) : EReal :=
  ∑ j : Fin 2048, expo qf kf j

/-- The attended value of one query row at one coordinate: the softmax weights against that coordinate's column of values. -/
def attRow (qf : Fin 64 → EReal) (kf : Fin 2048 → Fin 64 → EReal) (vf : Fin 2048 → EReal) : EReal :=
  ∑ j : Fin 2048, Ideal.div (expo qf kf j) (denom qf kf) * vf j

/-- Attention of every head, as a `[2, 16, 2048, 64]` array of queries, keys and values. -/
def attArr (q k v : SH.Idx → EReal) : SH.Idx → EReal :=
  fun j => attRow
    (fun d => q (ix4 (⟨(j 0).val, (j 0).isLt⟩ : Fin 2) (⟨(j 1).val, (j 1).isLt⟩ : Fin 16) (⟨(j 2).val, (j 2).isLt⟩ : Fin 2048) d))
    (fun jj d => k (ix4 (⟨(j 0).val, (j 0).isLt⟩ : Fin 2) (⟨(j 1).val, (j 1).isLt⟩ : Fin 16) jj d))
    (fun jj => v (ix4 (⟨(j 0).val, (j 0).isLt⟩ : Fin 2) (⟨(j 1).val, (j 1).isLt⟩ : Fin 16) jj (⟨(j 3).val, (j 3).isLt⟩ : Fin 64)))

/-- The head a merged coordinate `e = h · 64 + d` belongs to, and its coordinate inside the head. -/
def headOf (e : Fin 1024) : Fin 16 := ⟨e.val / 64, by have := e.isLt; omega⟩
def coordOf (e : Fin 1024) : Fin 64 := ⟨e.val % 64, by omega⟩

/-- The output projection of the merged heads at `(b, s, o)`. -/
def outArr (a : SH.Idx → EReal) (wo : SWo.Idx → EReal) (bo : SBo.Idx → EReal) : SX.Idx → EReal :=
  fun j => (∑ e : Fin 1024,
      a (ix4 (⟨(j 0).val, (j 0).isLt⟩ : Fin 2) (headOf e) (⟨(j 1).val, (j 1).isLt⟩ : Fin 2048) (coordOf e))
        * wo (ix2 (⟨(j 2).val, (j 2).isLt⟩ : Fin 1024) e))
    + bo (ix1 (⟨(j 2).val, (j 2).isLt⟩ : Fin 1024))

/-- The whole layer. -/
def G (x : SX.Idx → EReal) (w : SW.Idx → EReal) (bq : SB.Idx → EReal) (wo : SWo.Idx → EReal) (bo : SBo.Idx → EReal) :
    SX.Idx → EReal :=
  outArr (attArr (headArr 0 (by omega) x w bq) (headArr 64 (by omega) x w bq) (headArr 128 (by omega) x w bq)) wo bo

end Cert.Spec

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.K0Pay.lean ====
/-
  The projection kernel's stored blocks, read at an index.

  At one grid point the kernel holds 512 rows of `x` (a `[1, 512, 1024]` block), the whole transposed weight
  `[1024, 3072]` and the bias row `[1, 3072]`. It forms `acc (r, c) = ∑ i, x (r, i) · wT (i, c) + bias c`, views the 3072
  columns as 16 heads of 192, puts the head axis first, and stores the column ranges `[0, 64)`, `[64, 128)`, `[128, 192)`
  of every head as the query, key and value blocks. So each stored block at `(h, r, d)` is `acc` at row `r` and column
  `h · 192 + off + d`.
-/
import proofs.«127646_j18081812316199_2_alg».proof.Proof.Gen.KernelIdeal.Skeleton
import proofs.«127646_j18081812316199_2_alg».proof.Proof.Spec
import proofs.«127646_j18081812316199_2_alg».proof.Proof.LibMatDot
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Spec Cert.Lib
open scoped BigOperators

/-- The accumulator with the head axis first, at head `h`, row `r`, column `c` of the head's 192. -/
theorem pay1_apply (x0 : Vec Ideal S1x512x1024 .f32) (x1 : Vec Ideal S1024x3072 .bf16) (x2 : Vec Ideal S1x3072 .f32)
    (h : Fin 16) (r : Fin 512) (c : Fin 192) (cc : Fin 3072) (hcc : cc.val = h.val * 192 + c.val) :
    k0_pay1 (F := Ideal) x0 x1 x2 (ix3 h r c)
      = (∑ i : Fin 1024, x0 (ix3 (0 : Fin 1) r i) * x1 (ix2 i cc)) + x2 (ix2 (0 : Fin 1) cc) := by
  unfold k0_pay1
  refine (transpose_apply [1, 0, 2] _ transposes_S512x16x192_p1_0_2_S16x512x192 (ix3 h r c) (ix3 r h c)
    (fun b => match b with | ⟨0, _⟩ => rfl | ⟨1, _⟩ => rfl | ⟨2, _⟩ => rfl)).trans ?_
  refine (shapeCast_apply _ shapeCasts_S512x3072_S512x16x192 (ix3 r h c) (ix2 r cc) (by
    rw [Shape.rowMajor_val_two, Shape.rowMajor_val_three]
    show r.val * 3072 + cc.val = (r.val * 16 + h.val) * 192 + c.val
    have := h.isLt; have := c.isLt; omega)).trans ?_
  rw [addf_apply]
  congr 1
  · refine (matmul_plain_zero_apply dot_S512x1024_S1024x3072_S512x3072_1_0_0_1_n_n_wf none _ _ r cc).trans ?_
    refine Finset.sum_congr rfl fun i _ => ?_
    rw [truncf_apply, shapeCast_self]
    congr 1
    exact shapeCast_apply x0 shapeCasts_S1x512x1024_S512x1024 (ix2 r i) (ix3 (0 : Fin 1) r i) (by
      rw [Shape.rowMajor_val_three, Shape.rowMajor_val_two]
      show (0 * 512 + r.val) * 1024 + i.val = r.val * 1024 + i.val
      omega)
  · rw [shapeCast_self]
    exact broadcastTo_apply x2 broadcasts_S1x3072_S512x3072 (ix2 r cc) (ix2 (0 : Fin 1) cc) (fun a => match a with
      | ⟨0, _⟩ => by show 0 = if (1 : Nat) = 1 then 0 else r.val; rw [if_pos rfl]
      | ⟨1, _⟩ => by show cc.val = if (3072 : Nat) = 1 then 0 else cc.val; rw [if_neg (by decide)])

/-- The query block: columns `[0, 64)` of every head. -/
theorem pay2_apply (x0 : Vec Ideal S1x512x1024 .f32) (x1 : Vec Ideal S1024x3072 .bf16) (x2 : Vec Ideal S1x3072 .f32)
    (u : Fin 1) (h : Fin 16) (r : Fin 512) (d : Fin 64) :
    k0_pay2 (F := Ideal) x0 x1 x2 (ix4 u h r d)
      = (∑ i : Fin 1024, x0 (ix3 (0 : Fin 1) r i) * x1 (ix2 i (col 0 (by omega) h d)))
        + x2 (ix2 (0 : Fin 1) (col 0 (by omega) h d)) := by
  unfold k0_pay2
  refine (shapeCast_apply _ shapeCasts_S16x512x64_S1x16x512x64 (ix4 u h r d) (ix3 h r d) (by
    rw [Shape.rowMajor_val_three, Shape.rowMajor_val_four]
    show (h.val * 512 + r.val) * 64 + d.val = ((u.val * 16 + h.val) * 512 + r.val) * 64 + d.val
    have := u.isLt; omega)).trans ?_
  rw [truncf_apply]
  refine (extractStridedSlice_apply ![0, 0, 0] _ slices_S16x512x192_o0_0_0_S16x512x64 (ix3 h r d)
    (ix3 h r (⟨0 + d.val, by have := d.isLt; omega⟩ : Fin 192)) (fun a => match a with
      | ⟨0, _⟩ => by show h.val = 0 + h.val; omega
      | ⟨1, _⟩ => by show r.val = 0 + r.val; omega
      | ⟨2, _⟩ => by show 0 + d.val = 0 + d.val; rfl)).trans ?_
  exact pay1_apply x0 x1 x2 h r _ _ (by show h.val * 192 + 0 + d.val = h.val * 192 + (0 + d.val); omega)

/-- The key block: columns `[64, 128)` of every head. -/
theorem pay3_apply (x0 : Vec Ideal S1x512x1024 .f32) (x1 : Vec Ideal S1024x3072 .bf16) (x2 : Vec Ideal S1x3072 .f32)
    (u : Fin 1) (h : Fin 16) (r : Fin 512) (d : Fin 64) :
    k0_pay3 (F := Ideal) x0 x1 x2 (ix4 u h r d)
      = (∑ i : Fin 1024, x0 (ix3 (0 : Fin 1) r i) * x1 (ix2 i (col 64 (by omega) h d)))
        + x2 (ix2 (0 : Fin 1) (col 64 (by omega) h d)) := by
  unfold k0_pay3
  refine (shapeCast_apply _ shapeCasts_S16x512x64_S1x16x512x64 (ix4 u h r d) (ix3 h r d) (by
    rw [Shape.rowMajor_val_three, Shape.rowMajor_val_four]
    show (h.val * 512 + r.val) * 64 + d.val = ((u.val * 16 + h.val) * 512 + r.val) * 64 + d.val
    have := u.isLt; omega)).trans ?_
  rw [truncf_apply]
  refine (extractStridedSlice_apply ![0, 0, 64] _ slices_S16x512x192_o0_0_64_S16x512x64 (ix3 h r d)
    (ix3 h r (⟨64 + d.val, by have := d.isLt; omega⟩ : Fin 192)) (fun a => match a with
      | ⟨0, _⟩ => by show h.val = 0 + h.val; omega
      | ⟨1, _⟩ => by show r.val = 0 + r.val; omega
      | ⟨2, _⟩ => by show 64 + d.val = 64 + d.val; rfl)).trans ?_
  exact pay1_apply x0 x1 x2 h r _ _ (by show h.val * 192 + 64 + d.val = h.val * 192 + (64 + d.val); omega)

/-- The value block: columns `[128, 192)` of every head. -/
theorem pay4_apply (x0 : Vec Ideal S1x512x1024 .f32) (x1 : Vec Ideal S1024x3072 .bf16) (x2 : Vec Ideal S1x3072 .f32)
    (u : Fin 1) (h : Fin 16) (r : Fin 512) (d : Fin 64) :
    k0_pay4 (F := Ideal) x0 x1 x2 (ix4 u h r d)
      = (∑ i : Fin 1024, x0 (ix3 (0 : Fin 1) r i) * x1 (ix2 i (col 128 (by omega) h d)))
        + x2 (ix2 (0 : Fin 1) (col 128 (by omega) h d)) := by
  unfold k0_pay4
  refine (shapeCast_apply _ shapeCasts_S16x512x64_S1x16x512x64 (ix4 u h r d) (ix3 h r d) (by
    rw [Shape.rowMajor_val_three, Shape.rowMajor_val_four]
    show (h.val * 512 + r.val) * 64 + d.val = ((u.val * 16 + h.val) * 512 + r.val) * 64 + d.val
    have := u.isLt; omega)).trans ?_
  rw [truncf_apply]
  refine (extractStridedSlice_apply ![0, 0, 128] _ slices_S16x512x192_o0_0_128_S16x512x64 (ix3 h r d)
    (ix3 h r (⟨128 + d.val, by have := d.isLt; omega⟩ : Fin 192)) (fun a => match a with
      | ⟨0, _⟩ => by show h.val = 0 + h.val; omega
      | ⟨1, _⟩ => by show r.val = 0 + r.val; omega
      | ⟨2, _⟩ => by show 128 + d.val = 128 + d.val; rfl)).trans ?_
  exact pay1_apply x0 x1 x2 h r _ _ (by show h.val * 192 + 128 + d.val = h.val * 192 + (128 + d.val); omega)

end Cert.KernelIdeal.Pay

end
-- ==== Proof.Region0.lean ====
/-
  The projection kernel's three result arrays, whole.

  The grid is 2 batches by 4 row tiles. At point `(b, i)` the kernel reads rows `[512 i, 512 i + 512)` of batch `b` of `x`,
  the whole transposed weight and the bias row, and writes, for each of the three parts, the `[16, 512, 64]` block of batch
  `b` at the same rows. The blocks tile the `[2, 16, 2048, 64]` arrays, so each array ends holding, at `(b, h, s, d)`,
  `∑ i, x (b, s, i) · wT (i, c) + bias c` with `c = h · 192 + off + d`: one function of the arrays the kernel finds.
-/
import proofs.«127646_j18081812316199_2_alg».proof.Proof.Gen.KernelIdeal.Frame
import proofs.«127646_j18081812316199_2_alg».proof.Proof.K0Pay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.KernelIdeal.Pay Cert.Spec Idealize.ShloMosaic.ValueIdx
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- One part of the projection, over the input, the transposed weight `[1024, 3072]` and the bias row `[1, 3072]`. -/
def partArr (off : ℕ) (hoff : off + 64 ≤ 192) (X : S2x2048x1024.Idx → EReal) (WT : S1024x3072.Idx → EReal)
    (B2 : S1x3072.Idx → EReal) : S2x16x2048x64.Idx → EReal :=
  fun j => (∑ i : Fin 1024, X (ix3 (⟨(j 0).val, (j 0).isLt⟩ : Fin 2) (⟨(j 2).val, (j 2).isLt⟩ : Fin 2048) i)
      * WT (ix2 i (col off hoff ⟨(j 1).val, (j 1).isLt⟩ ⟨(j 3).val, (j 3).isLt⟩)))
    + B2 (ix2 (0 : Fin 1) (col off hoff ⟨(j 1).val, (j 1).isLt⟩ ⟨(j 3).val, (j 3).isLt⟩))

/-! ## Output window 3 (offset 0) -/

/-- The printed index maps over the grid: the input tile moves with the output tile, the weight and the bias stay. -/
theorem idx_facts3 : ∀ t : Fin cfg0.N,
    win0_0.index t (0 : Fin 3) = win0_3.index t (0 : Fin 4) ∧ win0_0.index t (1 : Fin 3) = win0_3.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 4) = 0 ∧ win0_3.index t (3 : Fin 4) = 0
    ∧ win0_3.index t (0 : Fin 4) ≤ 1 ∧ win0_3.index t (2 : Fin 4) ≤ 3 :=
  (by decide +kernel : ∀ t : Fin grid0.N, _)

/-- Every tile of the array is some point's. -/
theorem idx_onto3 : ∀ (q0 : Fin 2) (q2 : Fin 4), ∃ t : Fin cfg0.N, win0_3.index t = ![q0.val, 0, q2.val, 0] :=
  (by decide +kernel : ∀ (q0 : Fin 2) (q2 : Fin 4), ∃ t : Fin grid0.N, win0_3.index t = ![q0.val, 0, q2.val, 0])

/-- What point `t` writes back is tile `t` of the part's array. -/
theorem flushed3_eq (c : Dev nD) (t : Fin cfg0.N) :
    (dat0 V c).flushed 3 t = ((cfg0.win 3).blk t).view.read (Elt Ideal)
      (partArr 0 (by omega) (V c main_arg0) (V c main_v1) (V c main_v2)) := by
  show (cfg0.win 3).cut (grid0.coords t) ((dat0 V c).after 3 t) = _
  rw [after0_3]
  unfold out0_3
  rw [View.canon_unit_zero hz4]
  simp only [View.ld_unit_zero (S := S1x512x1024) hz3, View.ld_unit_zero (S := S1024x3072) hz2, View.ld_unit_zero (S := S1x3072) hz2]
  obtain ⟨e0, e1, e2, e3, e4, e5, e6, e7, e8, e9, e10⟩ := idx_facts3 t
  funext y
  obtain ⟨u, h, r, d, rfl⟩ : ∃ (u : Fin 1) (h : Fin 16) (r : Fin 512) (d : Fin 64), y = ix4 u h r d :=
    ⟨y 0, y 1, y 2, y 3, eq_ix4 y⟩
  refine (pay2_apply (iblk0 V c 0 t) (iblk0 V c 1 t) (iblk0 V c 2 t) u h r d).trans ?_
  rw [View.read_apply]
  unfold partArr
  have hu : u.val = 0 := by have := u.isLt; omega
  congr 1
  · refine Finset.sum_congr rfl fun i _ => ?_
    congr 1
    · unfold iblk0
      rw [View.read_apply]
      show V c main_arg0 _ = V c main_arg0 _
      congr 1
      funext a
      apply Fin.ext
      match a with
      | ⟨0, _⟩ => show win0_0.index t (0 : Fin 3) * 1 + 1 * 0 = win0_3.index t (0 : Fin 4) * 1 + 1 * u.val; omega
      | ⟨1, _⟩ => show win0_0.index t (1 : Fin 3) * 512 + 1 * r.val = win0_3.index t (2 : Fin 4) * 512 + 1 * r.val; omega
      | ⟨2, _⟩ => show win0_0.index t (2 : Fin 3) * 1024 + 1 * i.val = i.val; omega
    · unfold iblk0
      rw [View.read_apply]
      show V c main_v1 _ = V c main_v1 _
      congr 1
      funext a
      apply Fin.ext
      match a with
      | ⟨0, _⟩ => show win0_1.index t (0 : Fin 2) * 1024 + 1 * i.val = i.val; omega
      | ⟨1, _⟩ =>
        show win0_1.index t (1 : Fin 2) * 3072 + 1 * (h.val * 192 + 0 + d.val)
          = (win0_3.index t (1 : Fin 4) * 16 + 1 * h.val) * 192 + 0 + (win0_3.index t (3 : Fin 4) * 64 + 1 * d.val)
        omega
  · unfold iblk0
    rw [View.read_apply]
    show V c main_v2 _ = V c main_v2 _
    congr 1
    funext a
    apply Fin.ext
    match a with
    | ⟨0, _⟩ => show win0_2.index t (0 : Fin 2) * 1 + 1 * 0 = 0; omega
    | ⟨1, _⟩ =>
      show win0_2.index t (1 : Fin 2) * 3072 + 1 * (h.val * 192 + 0 + d.val)
        = (win0_3.index t (1 : Fin 4) * 16 + 1 * h.val) * 192 + 0 + (win0_3.index t (3 : Fin 4) * 64 + 1 * d.val)
      omega

/-- An index of the array is in point `t`'s tile iff each coordinate is in the tile's range on its axis. -/
theorem mem_blk3 (t : Fin cfg0.N) (i : S2x16x2048x64.Idx) :
    i ∈ ((cfg0.win 3).blk t).view.set ↔ ∀ a : Fin 4, win0_3.index t a * S1x16x512x64.size a ≤ (i a).val
      ∧ (i a).val < win0_3.index t a * S1x16x512x64.size a + S1x16x512x64.size a := by
  show i ∈ ((View.whole main_v6_0).slice (win0_3.rect t)).set ↔ _
  rw [View.set_slice_whole, Rect.mem_set_unit]
  exact Iff.rfl

/-- The tiles cover the array. -/
theorem cover3 (i : S2x16x2048x64.Idx) :
    ∃ t : Fin cfg0.N, (cfg0.win 3).flush t = true ∧ i ∈ ((cfg0.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto3 ⟨(i 0).val, hi0⟩ ⟨(i 2).val / 512, by omega⟩
  have q0 : win0_3.index t (0 : Fin 4) = (i 0).val := congrFun ht 0
  have q1 : win0_3.index t (1 : Fin 4) = 0 := congrFun ht 1
  have q2 : win0_3.index t (2 : Fin 4) = (i 2).val / 512 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 512 ≤ (i 2).val ∧ (i 2).val < win0_3.index t (2 : Fin 4) * 512 + 512; omega
  | ⟨3, _⟩ => show win0_3.index t (3 : Fin 4) * 64 ≤ (i 3).val ∧ (i 3).val < win0_3.index t (3 : Fin 4) * 64 + 64; omega

/-- The array after the kernel's run. -/
theorem final3 (c : Dev nD) :
    (dat0 V c).arrAt 3 cfg0.N = partArr 0 (by omega) (V c main_arg0) (V c main_v1) (V c main_v2) :=
  (dat0 V c).arrAt_eq_of_cover 3 _ (fun t _ => flushed3_eq V c t) (cover3)

/-! ## Output window 4 (offset 64) -/

/-- The printed index maps over the grid: the input tile moves with the output tile, the weight and the bias stay. -/
theorem idx_facts4 : ∀ t : Fin cfg0.N,
    win0_0.index t (0 : Fin 3) = win0_4.index t (0 : Fin 4) ∧ win0_0.index t (1 : Fin 3) = win0_4.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_4.index t (1 : Fin 4) = 0 ∧ win0_4.index t (3 : Fin 4) = 0
    ∧ win0_4.index t (0 : Fin 4) ≤ 1 ∧ win0_4.index t (2 : Fin 4) ≤ 3 :=
  (by decide +kernel : ∀ t : Fin grid0.N, _)

/-- Every tile of the array is some point's. -/
theorem idx_onto4 : ∀ (q0 : Fin 2) (q2 : Fin 4), ∃ t : Fin cfg0.N, win0_4.index t = ![q0.val, 0, q2.val, 0] :=
  (by decide +kernel : ∀ (q0 : Fin 2) (q2 : Fin 4), ∃ t : Fin grid0.N, win0_4.index t = ![q0.val, 0, q2.val, 0])

/-- What point `t` writes back is tile `t` of the part's array. -/
theorem flushed4_eq (c : Dev nD) (t : Fin cfg0.N) :
    (dat0 V c).flushed 4 t = ((cfg0.win 4).blk t).view.read (Elt Ideal)
      (partArr 64 (by omega) (V c main_arg0) (V c main_v1) (V c main_v2)) := by
  show (cfg0.win 4).cut (grid0.coords t) ((dat0 V c).after 4 t) = _
  rw [after0_4]
  unfold out0_4
  rw [View.canon_unit_zero hz4]
  simp only [View.ld_unit_zero (S := S1x512x1024) hz3, View.ld_unit_zero (S := S1024x3072) hz2, View.ld_unit_zero (S := S1x3072) hz2]
  obtain ⟨e0, e1, e2, e3, e4, e5, e6, e7, e8, e9, e10⟩ := idx_facts4 t
  funext y
  obtain ⟨u, h, r, d, rfl⟩ : ∃ (u : Fin 1) (h : Fin 16) (r : Fin 512) (d : Fin 64), y = ix4 u h r d :=
    ⟨y 0, y 1, y 2, y 3, eq_ix4 y⟩
  refine (pay3_apply (iblk0 V c 0 t) (iblk0 V c 1 t) (iblk0 V c 2 t) u h r d).trans ?_
  rw [View.read_apply]
  unfold partArr
  have hu : u.val = 0 := by have := u.isLt; omega
  congr 1
  · refine Finset.sum_congr rfl fun i _ => ?_
    congr 1
    · unfold iblk0
      rw [View.read_apply]
      show V c main_arg0 _ = V c main_arg0 _
      congr 1
      funext a
      apply Fin.ext
      match a with
      | ⟨0, _⟩ => show win0_0.index t (0 : Fin 3) * 1 + 1 * 0 = win0_4.index t (0 : Fin 4) * 1 + 1 * u.val; omega
      | ⟨1, _⟩ => show win0_0.index t (1 : Fin 3) * 512 + 1 * r.val = win0_4.index t (2 : Fin 4) * 512 + 1 * r.val; omega
      | ⟨2, _⟩ => show win0_0.index t (2 : Fin 3) * 1024 + 1 * i.val = i.val; omega
    · unfold iblk0
      rw [View.read_apply]
      show V c main_v1 _ = V c main_v1 _
      congr 1
      funext a
      apply Fin.ext
      match a with
      | ⟨0, _⟩ => show win0_1.index t (0 : Fin 2) * 1024 + 1 * i.val = i.val; omega
      | ⟨1, _⟩ =>
        show win0_1.index t (1 : Fin 2) * 3072 + 1 * (h.val * 192 + 64 + d.val)
          = (win0_4.index t (1 : Fin 4) * 16 + 1 * h.val) * 192 + 64 + (win0_4.index t (3 : Fin 4) * 64 + 1 * d.val)
        omega
  · unfold iblk0
    rw [View.read_apply]
    show V c main_v2 _ = V c main_v2 _
    congr 1
    funext a
    apply Fin.ext
    match a with
    | ⟨0, _⟩ => show win0_2.index t (0 : Fin 2) * 1 + 1 * 0 = 0; omega
    | ⟨1, _⟩ =>
      show win0_2.index t (1 : Fin 2) * 3072 + 1 * (h.val * 192 + 64 + d.val)
        = (win0_4.index t (1 : Fin 4) * 16 + 1 * h.val) * 192 + 64 + (win0_4.index t (3 : Fin 4) * 64 + 1 * d.val)
      omega

/-- An index of the array is in point `t`'s tile iff each coordinate is in the tile's range on its axis. -/
theorem mem_blk4 (t : Fin cfg0.N) (i : S2x16x2048x64.Idx) :
    i ∈ ((cfg0.win 4).blk t).view.set ↔ ∀ a : Fin 4, win0_4.index t a * S1x16x512x64.size a ≤ (i a).val
      ∧ (i a).val < win0_4.index t a * S1x16x512x64.size a + S1x16x512x64.size a := by
  show i ∈ ((View.whole main_v6_1).slice (win0_4.rect t)).set ↔ _
  rw [View.set_slice_whole, Rect.mem_set_unit]
  exact Iff.rfl

/-- The tiles cover the array. -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto4 ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-- The array after the kernel's run. -/
theorem final4 (c : Dev nD) :
    (dat0 V c).arrAt 4 cfg0.N = partArr 64 (by omega) (V c main_arg0) (V c main_v1) (V c main_v2) :=
  (dat0 V c).arrAt_eq_of_cover 4 _ (fun t _ => flushed4_eq V c t) (cover4)

/-! ## Output window 5 (offset 128) -/

/-- The printed index maps over the grid: the input tile moves with the output tile, the weight and the bias stay. -/
theorem idx_facts5 : ∀ t : Fin cfg0.N,
    win0_0.index t (0 : Fin 3) = win0_5.index t (0 : Fin 4) ∧ win0_0.index t (1 : Fin 3) = win0_5.index t (2 : Fin 4)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_5.index t (1 : Fin 4) = 0 ∧ win0_5.index t (3 : Fin 4) = 0
    ∧ win0_5.index t (0 : Fin 4) ≤ 1 ∧ win0_5.index t (2 : Fin 4) ≤ 3 :=
  (by decide +kernel : ∀ t : Fin grid0.N, _)

/-- Every tile of the array is some point's. -/
theorem idx_onto5 : ∀ (q0 : Fin 2) (q2 : Fin 4), ∃ t : Fin cfg0.N, win0_5.index t = ![q0.val, 0, q2.val, 0] :=
  (by decide +kernel : ∀ (q0 : Fin 2) (q2 : Fin 4), ∃ t : Fin grid0.N, win0_5.index t = ![q0.val, 0, q2.val, 0])

/-- What point `t` writes back is tile `t` of the part's array. -/
theorem flushed5_eq (c : Dev nD) (t : Fin cfg0.N) :
    (dat0 V c).flushed 5 t = ((cfg0.win 5).blk t).view.read (Elt Ideal)
      (partArr 128 (by omega) (V c main_arg0) (V c main_v1) (V c main_v2)) := by
  show (cfg0.win 5).cut (grid0.coords t) ((dat0 V c).after 5 t) = _
  rw [after0_5]
  unfold out0_5
  rw [View.canon_unit_zero hz4]
  simp only [View.ld_unit_zero (S := S1x512x1024) hz3, View.ld_unit_zero (S := S1024x3072) hz2, View.ld_unit_zero (S := S1x3072) hz2]
  obtain ⟨e0, e1, e2, e3, e4, e5, e6, e7, e8, e9, e10⟩ := idx_facts5 t
  funext y
  obtain ⟨u, h, r, d, rfl⟩ : ∃ (u : Fin 1) (h : Fin 16) (r : Fin 512) (d : Fin 64), y = ix4 u h r d :=
    ⟨y 0, y 1, y 2, y 3, eq_ix4 y⟩
  refine (pay4_apply (iblk0 V c 0 t) (iblk0 V c 1 t) (iblk0 V c 2 t) u h r d).trans ?_
  rw [View.read_apply]
  unfold partArr
  have hu : u.val = 0 := by have := u.isLt; omega
  congr 1
  · refine Finset.sum_congr rfl fun i _ => ?_
    congr 1
    · unfold iblk0
      rw [View.read_apply]
      show V c main_arg0 _ = V c main_arg0 _
      congr 1
      funext a
      apply Fin.ext
      match a with
      | ⟨0, _⟩ => show win0_0.index t (0 : Fin 3) * 1 + 1 * 0 = win0_5.index t (0 : Fin 4) * 1 + 1 * u.val; omega
      | ⟨1, _⟩ => show win0_0.index t (1 : Fin 3) * 512 + 1 * r.val = win0_5.index t (2 : Fin 4) * 512 + 1 * r.val; omega
      | ⟨2, _⟩ => show win0_0.index t (2 : Fin 3) * 1024 + 1 * i.val = i.val; omega
    · unfold iblk0
      rw [View.read_apply]
      show V c main_v1 _ = V c main_v1 _
      congr 1
      funext a
      apply Fin.ext
      match a with
      | ⟨0, _⟩ => show win0_1.index t (0 : Fin 2) * 1024 + 1 * i.val = i.val; omega
      | ⟨1, _⟩ =>
        show win0_1.index t (1 : Fin 2) * 3072 + 1 * (h.val * 192 + 128 + d.val)
          = (win0_5.index t (1 : Fin 4) * 16 + 1 * h.val) * 192 + 128 + (win0_5.index t (3 : Fin 4) * 64 + 1 * d.val)
        omega
  · unfold iblk0
    rw [View.read_apply]
    show V c main_v2 _ = V c main_v2 _
    congr 1
    funext a
    apply Fin.ext
    match a with
    | ⟨0, _⟩ => show win0_2.index t (0 : Fin 2) * 1 + 1 * 0 = 0; omega
    | ⟨1, _⟩ =>
      show win0_2.index t (1 : Fin 2) * 3072 + 1 * (h.val * 192 + 128 + d.val)
        = (win0_5.index t (1 : Fin 4) * 16 + 1 * h.val) * 192 + 128 + (win0_5.index t (3 : Fin 4) * 64 + 1 * d.val)
      omega

/-- An index of the array is in point `t`'s tile iff each coordinate is in the tile's range on its axis. -/
theorem mem_blk5 (t : Fin cfg0.N) (i : S2x16x2048x64.Idx) :
    i ∈ ((cfg0.win 5).blk t).view.set ↔ ∀ a : Fin 4, win0_5.index t a * S1x16x512x64.size a ≤ (i a).val
      ∧ (i a).val < win0_5.index t a * S1x16x512x64.size a + S1x16x512x64.size a := by
  show i ∈ ((View.whole main_v6_2).slice (win0_5.rect t)).set ↔ _
  rw [View.set_slice_whole, Rect.mem_set_unit]
  exact Iff.rfl

/-- The tiles cover the array. -/
theorem cover5 (i : S2x16x2048x64.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto5 ⟨(i 0).val, hi0⟩ ⟨(i 2).val / 512, by omega⟩
  have q0 : win0_5.index t (0 : Fin 4) = (i 0).val := congrFun ht 0
  have q1 : win0_5.index t (1 : Fin 4) = 0 := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 16 ≤ (i 1).val ∧ (i 1).val < win0_5.index t (1 : Fin 4) * 16 + 16; omega
  | ⟨2, _⟩ => show win0_5.index t (2 : Fin 4) * 512 ≤ (i 2).val ∧ (i 2).val < win0_5.index t (2 : Fin 4) * 512 + 512; omega
  | ⟨3, _⟩ => show win0_5.index t (3 : Fin 4) * 64 ≤ (i 3).val ∧ (i 3).val < win0_5.index t (3 : Fin 4) * 64 + 64; omega

/-- The array after the kernel's run. -/
theorem final5 (c : Dev nD) :
    (dat0 V c).arrAt 5 cfg0.N = partArr 128 (by omega) (V c main_arg0) (V c main_v1) (V c main_v2) :=
  (dat0 V c).arrAt_eq_of_cover 5 _ (fun t _ => flushed5_eq V c t) (cover5)

end Cert.KernelIdeal.Region0

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.K1Pay.lean ====
/-
  The attention kernel's stored block, read at an index.

  At one grid point the kernel holds 512 query rows `[1, 1, 512, 64]` and all 2048 keys and values of their head
  `[1, 1, 2048, 64]`. It forms the scores `(∑ d, q (r, d) · k (j, d)) · 1/8`, each row's maximum, the exponentials of the
  scores below it, each row's sum of them, the quotients, and their product with the values. So the stored block at
  `(r, d)` is the softmax-weighted sum `∑ j, weight (r, j) · v (j, d)` of the specification, over the block's own rows.
-/
import proofs.«127646_j18081812316199_2_alg».proof.Proof.Gen.KernelIdeal.Skeleton
import proofs.«127646_j18081812316199_2_alg».proof.Proof.Spec
import proofs.«127646_j18081812316199_2_alg».proof.Proof.LibMatDot
import proofs.«127646_j18081812316199_2_alg».proof.Proof.LibRowsDot
import proofs.«127646_j18081812316199_2_alg».proof.Proof.LibColumn
import proofs.«127646_j18081812316199_2_alg».proof.Proof.LibRowMax
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Spec Cert.Lib
open scoped BigOperators

/-- A row's maximum, kept as a column and spread back over the row's 2048 positions: at `(r, j)` it is the fold of
    `max` over row `r`, whatever `j`. -/
theorem rowMax_spread_apply (M : FVec Ideal S512x2048 .f32) (r : Fin 512) (j : Fin 2048) :
    broadcastTo S512x2048 (shapeCast S512x1 (multiReduction .maximumf [1] S512 M 0xFF800000#32 reduces_S512x2048_S512 (.inl rfl) rfl)
        shapeCasts_S512_S512x1) broadcasts_S512x1_S512x2048 (ix2 r j)
      = (Finset.univ : Finset (Fin 2048)).fold max (Ideal.ofBits .f32 0xFF800000#32) (fun j' => M (ix2 r j')) :=
  (broadcastTo_a1_ab_apply _ broadcasts_S512x1_S512x2048 r j).trans
    ((shapeCast_a_a1_apply _ shapeCasts_S512_S512x1 r 0).trans
      (multiReduction_maximumf_rows M 0xFF800000#32 reduces_S512x2048_S512 (.inl rfl) rfl r))

/-- A row's sum, kept as a column and spread back over the row: at `(r, j)` it is the sum over row `r`. -/
theorem rowSum_spread_apply (E : FVec Ideal S512x2048 .f32) (r : Fin 512) (j : Fin 2048) :
    broadcastTo S512x2048 (shapeCast S512x1 (multiReduction .add [1] S512 E 0x00000000#32 reduces_S512x2048_S512 (.inl rfl) rfl)
        shapeCasts_S512_S512x1) broadcasts_S512x1_S512x2048 (ix2 r j)
      = ∑ j' : Fin 2048, E (ix2 r j') := by
  refine (broadcastTo_a1_ab_apply _ broadcasts_S512x1_S512x2048 r j).trans
    ((shapeCast_a_a1_apply _ shapeCasts_S512_S512x1 r 0).trans ?_)
  refine (Ideal.multiReduction_add_single E 0x00000000#32 reduces_S512x2048_S512 (.inl rfl) rfl (ix1 r)).trans ?_
  exact Finset.sum_congr rfl fun k _ => congrArg E (lift_lastAxis2 reduces_S512x2048_S512 r k)

/-- The scaled scores of the block's queries against its keys, as a `[512, 2048]` matrix. -/
def scoresMat (x0 : Vec Ideal S1x1x512x64 .bf16) (x1 : Vec Ideal S1x1x2048x64 .bf16) : FVec Ideal S512x2048 .f32 :=
  mulf (matmul dot_S512x64_S2048x64_S512x2048_1_1_0_0_n_n none
      (shapeCast S512x64 x0 shapeCasts_S1x1x512x64_S512x64 : FVec Ideal S512x64 .bf16)
      (shapeCast S2048x64 x1 shapeCasts_S1x1x2048x64_S2048x64 : FVec Ideal S2048x64 .bf16) (constant S512x2048 .f32 0x00000000#32))
    (broadcast S512x2048 (Scalar.ofBits (F := Ideal) .f32 0x3E000000#32))

/-- The exponentials of a matrix's entries below their row's maximum. -/
def expMat (M : FVec Ideal S512x2048 .f32) : FVec Ideal S512x2048 .f32 :=
  exp (subf M (broadcastTo S512x2048 (shapeCast S512x1
    (multiReduction .maximumf [1] S512 M 0xFF800000#32 reduces_S512x2048_S512 (.inl rfl) rfl) shapeCasts_S512_S512x1)
    broadcasts_S512x1_S512x2048))

theorem scoresMat_apply (x0 : Vec Ideal S1x1x512x64 .bf16) (x1 : Vec Ideal S1x1x2048x64 .bf16) (r : Fin 512) (j : Fin 2048) :
    scoresMat x0 x1 (ix2 r j)
      = score (fun d => x0 (ix4 (0 : Fin 1) (0 : Fin 1) r d)) (fun j' d => x1 (ix4 (0 : Fin 1) (0 : Fin 1) j' d)) j := by
  unfold scoresMat score
  rw [mulf_apply]
  congr 1
  refine (matmul_rows_zero_apply dot_S512x64_S2048x64_S512x2048_1_1_0_0_n_n_wf none _ _ r j).trans ?_
  refine Finset.sum_congr rfl fun d _ => ?_
  congr 1
  · exact shapeCast_apply x0 shapeCasts_S1x1x512x64_S512x64 (ix2 r d) (ix4 (0 : Fin 1) (0 : Fin 1) r d) (by
      rw [Shape.rowMajor_val_four, Shape.rowMajor_val_two]
      show ((0 * 1 + 0) * 512 + r.val) * 64 + d.val = r.val * 64 + d.val
      omega)
  · exact shapeCast_apply x1 shapeCasts_S1x1x2048x64_S2048x64 (ix2 j d) (ix4 (0 : Fin 1) (0 : Fin 1) j d) (by
      rw [Shape.rowMajor_val_four, Shape.rowMajor_val_two]
      show ((0 * 1 + 0) * 2048 + j.val) * 64 + d.val = j.val * 64 + d.val
      omega)

theorem expMat_apply (M : FVec Ideal S512x2048 .f32) (r : Fin 512) (j : Fin 2048) :
    expMat M (ix2 r j)
      = Ideal.exp (M (ix2 r j) - (Finset.univ : Finset (Fin 2048)).fold max (Ideal.ofBits .f32 0xFF800000#32) (fun j' => M (ix2 r j'))) := by
  unfold expMat
  show Ideal.exp (M (ix2 r j) - _) = _
  rw [rowMax_spread_apply]

/-- The stored block at `(r, d)`: the specification's attended value of query row `r` at coordinate `d`. -/
theorem pay_att_apply (x0 : Vec Ideal S1x1x512x64 .bf16) (x1 : Vec Ideal S1x1x2048x64 .bf16) (x2 : Vec Ideal S1x1x2048x64 .bf16)
    (u u' : Fin 1) (r : Fin 512) (d : Fin 64) :
    k1_pay1 (F := Ideal) x0 x1 x2 (ix4 u u' r d)
      = attRow (fun dd => x0 (ix4 (0 : Fin 1) (0 : Fin 1) r dd)) (fun j dd => x1 (ix4 (0 : Fin 1) (0 : Fin 1) j dd))
          (fun j => x2 (ix4 (0 : Fin 1) (0 : Fin 1) j d)) := by
  unfold k1_pay1
  refine (shapeCast_apply _ shapeCasts_S512x64_S1x1x512x64 (ix4 u u' r d) (ix2 r d) (by
    rw [Shape.rowMajor_val_two, Shape.rowMajor_val_four]
    show r.val * 64 + d.val = ((u.val * 1 + u'.val) * 512 + r.val) * 64 + d.val
    have := u.isLt; have := u'.isLt; omega)).trans ?_
  rw [truncf_apply]
  refine (matmul_plain_zero_apply dot_S512x2048_S2048x64_S512x64_1_0_0_1_n_n_wf none _ _ r d).trans ?_
  unfold attRow
  have he : ∀ j' : Fin 2048, expMat (scoresMat x0 x1) (ix2 r j')
      = expo (fun dd => x0 (ix4 (0 : Fin 1) (0 : Fin 1) r dd)) (fun jj dd => x1 (ix4 (0 : Fin 1) (0 : Fin 1) jj dd)) j' := fun j' => by
    rw [expMat_apply]
    unfold expo rowMax
    rw [scoresMat_apply]
    exact congrArg (fun f => Ideal.exp (_ - Finset.fold max _ f Finset.univ)) (funext fun j'' => scoresMat_apply x0 x1 r j'')
  refine Finset.sum_congr rfl fun j _ => ?_
  congr 1
  · rw [truncf_apply, divf_apply]
    show Ideal.div (expMat (scoresMat x0 x1) (ix2 r j))
      (broadcastTo S512x2048 (shapeCast S512x1 (multiReduction .add [1] S512 (expMat (scoresMat x0 x1)) 0x00000000#32
        reduces_S512x2048_S512 (.inl rfl) rfl) shapeCasts_S512_S512x1) broadcasts_S512x1_S512x2048 (ix2 r j)) = _
    rw [rowSum_spread_apply, he j]
    unfold denom
    exact congrArg _ (Finset.sum_congr rfl fun j' _ => he j')
  · exact shapeCast_apply x2 shapeCasts_S1x1x2048x64_S2048x64 (ix2 j d) (ix4 (0 : Fin 1) (0 : Fin 1) j d) (by
      rw [Shape.rowMajor_val_four, Shape.rowMajor_val_two]
      show ((0 * 1 + 0) * 2048 + j.val) * 64 + d.val = j.val * 64 + d.val
      omega)

end Cert.KernelIdeal.Pay

end
-- ==== Proof.Region1.lean ====
/-
  The attention kernel's result array, whole.

  The grid is 2 batches by 16 heads by 4 query tiles. At point `(b, h, i)` the kernel reads query rows
  `[512 i, 512 i + 512)` of head `(b, h)` and all of that head's keys and values, and writes the attended values of those
  rows. The tiles cover the `[2, 16, 2048, 64]` array, so it ends holding the specification's attention of the query, key
  and value arrays the kernel finds.
-/
import proofs.«127646_j18081812316199_2_alg».proof.Proof.Gen.KernelIdeal.Frame
import proofs.«127646_j18081812316199_2_alg».proof.Proof.K1Pay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.KernelIdeal.Pay Cert.Spec Idealize.ShloMosaic.ValueIdx
open scoped BigOperators

variable (V : (c : Dev nD) → (b : Ref sig .tc) → Buf (Elt Ideal) ((c : Thread nD τ).loc b))

theorem hz4 : (![0, 0, 0, 0] : Fin 4 → Nat) = fun _ => 0 := funext fun a => by fin_cases a <;> rfl

/-- The printed index maps over the grid: the query tile moves with the output tile; the keys and values are the
    whole head's. -/
theorem idx_facts : ∀ t : Fin cfg1.N,
    win1_0.index t (0 : Fin 4) = win1_3.index t (0 : Fin 4) ∧ win1_0.index t (1 : Fin 4) = win1_3.index t (1 : Fin 4)
    ∧ win1_0.index t (2 : Fin 4) = win1_3.index t (2 : Fin 4) ∧ win1_0.index t (3 : Fin 4) = 0
    ∧ win1_1.index t (0 : Fin 4) = win1_3.index t (0 : Fin 4) ∧ win1_1.index t (1 : Fin 4) = win1_3.index t (1 : Fin 4)
    ∧ win1_1.index t (2 : Fin 4) = 0 ∧ win1_1.index t (3 : Fin 4) = 0
    ∧ win1_2.index t (0 : Fin 4) = win1_3.index t (0 : Fin 4) ∧ win1_2.index t (1 : Fin 4) = win1_3.index t (1 : Fin 4)
    ∧ win1_2.index t (2 : Fin 4) = 0 ∧ win1_2.index t (3 : Fin 4) = 0
    ∧ win1_3.index t (3 : Fin 4) = 0 :=
  (by decide +kernel : ∀ t : Fin grid1.N, _)

/-- Every tile of the array is some point's. -/
theorem idx_onto : ∀ (q0 : Fin 2) (q1 : Fin 16) (q2 : Fin 4), ∃ t : Fin cfg1.N, win1_3.index t = ![q0.val, q1.val, q2.val, 0] :=
  (by decide +kernel : ∀ (q0 : Fin 2) (q1 : Fin 16) (q2 : Fin 4), ∃ t : Fin grid1.N, win1_3.index t = ![q0.val, q1.val, q2.val, 0])

/-- What point `t` writes back is tile `t` of the attention of the arrays the kernel finds. -/
theorem flushed_eq (c : Dev nD) (t : Fin cfg1.N) :
    (dat1 V c).flushed 3 t = ((cfg1.win 3).blk t).view.read (Elt Ideal)
      (attArr (V c main_v6_0) (V c main_v6_1) (V c main_v6_2)) := by
  show (cfg1.win 3).cut (grid1.coords t) ((dat1 V c).after 3 t) = _
  rw [after1_3]
  unfold out1_3
  rw [View.canon_unit_zero hz4]
  simp only [View.ld_unit_zero (S := S1x1x512x64) hz4, View.ld_unit_zero (S := S1x1x2048x64) hz4]
  obtain ⟨e0, e1, e2, e3, e4, e5, e6, e7, e8, e9, e10, e11, e12⟩ := idx_facts t
  funext y
  obtain ⟨u, u', r, d, rfl⟩ : ∃ (u : Fin 1) (u' : Fin 1) (r : Fin 512) (d : Fin 64), y = ix4 u u' r d :=
    ⟨y 0, y 1, y 2, y 3, eq_ix4 y⟩
  refine (pay_att_apply (iblk1 V c 0 t) (iblk1 V c 1 t) (iblk1 V c 2 t) u u' r d).trans ?_
  rw [View.read_apply]
  unfold attArr
  have hu : u.val = 0 := by have := u.isLt; omega
  have hu' : u'.val = 0 := by have := u'.isLt; omega
  congr 1
  · funext dd
    unfold iblk1
    rw [View.read_apply]
    show V c main_v6_0 _ = V c main_v6_0 _
    congr 1
    funext a
    apply Fin.ext
    match a with
    | ⟨0, _⟩ => show win1_0.index t (0 : Fin 4) * 1 + 1 * 0 = win1_3.index t (0 : Fin 4) * 1 + 1 * u.val; omega
    | ⟨1, _⟩ => show win1_0.index t (1 : Fin 4) * 1 + 1 * 0 = win1_3.index t (1 : Fin 4) * 1 + 1 * u'.val; omega
    | ⟨2, _⟩ => show win1_0.index t (2 : Fin 4) * 512 + 1 * r.val = win1_3.index t (2 : Fin 4) * 512 + 1 * r.val; omega
    | ⟨3, _⟩ => show win1_0.index t (3 : Fin 4) * 64 + 1 * dd.val = dd.val; omega
  · funext jj dd
    unfold iblk1
    rw [View.read_apply]
    show V c main_v6_1 _ = V c main_v6_1 _
    congr 1
    funext a
    apply Fin.ext
    match a with
    | ⟨0, _⟩ => show win1_1.index t (0 : Fin 4) * 1 + 1 * 0 = win1_3.index t (0 : Fin 4) * 1 + 1 * u.val; omega
    | ⟨1, _⟩ => show win1_1.index t (1 : Fin 4) * 1 + 1 * 0 = win1_3.index t (1 : Fin 4) * 1 + 1 * u'.val; omega
    | ⟨2, _⟩ => show win1_1.index t (2 : Fin 4) * 2048 + 1 * jj.val = jj.val; omega
    | ⟨3, _⟩ => show win1_1.index t (3 : Fin 4) * 64 + 1 * dd.val = dd.val; omega
  · funext jj
    unfold iblk1
    rw [View.read_apply]
    show V c main_v6_2 _ = V c main_v6_2 _
    congr 1
    funext a
    apply Fin.ext
    match a with
    | ⟨0, _⟩ => show win1_2.index t (0 : Fin 4) * 1 + 1 * 0 = win1_3.index t (0 : Fin 4) * 1 + 1 * u.val; omega
    | ⟨1, _⟩ => show win1_2.index t (1 : Fin 4) * 1 + 1 * 0 = win1_3.index t (1 : Fin 4) * 1 + 1 * u'.val; omega
    | ⟨2, _⟩ => show win1_2.index t (2 : Fin 4) * 2048 + 1 * jj.val = jj.val; omega
    | ⟨3, _⟩ => show win1_2.index t (3 : Fin 4) * 64 + 1 * d.val = win1_3.index t (3 : Fin 4) * 64 + 1 * d.val; omega

/-- An index of the array is in point `t`'s tile iff each coordinate is in the tile's range on its axis. -/
theorem mem_blk (t : Fin cfg1.N) (i : S2x16x2048x64.Idx) :
    i ∈ ((cfg1.win 3).blk t).view.set ↔ ∀ a : Fin 4, win1_3.index t a * S1x1x512x64.size a ≤ (i a).val
      ∧ (i a).val < win1_3.index t a * S1x1x512x64.size a + S1x1x512x64.size a := by
  show i ∈ ((View.whole main_v7).slice (win1_3.rect t)).set ↔ _
  rw [View.set_slice_whole, Rect.mem_set_unit]
  exact Iff.rfl

/-- The tiles cover the array. -/
theorem cover (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  have q0 : win1_3.index t (0 : Fin 4) = (i 0).val := congrFun ht 0
  have q1 : win1_3.index t (1 : Fin 4) = (i 1).val := congrFun ht 1
  have q2 : win1_3.index t (2 : Fin 4) = (i 2).val / 512 := congrFun ht 2
  have q3 : win1_3.index t (3 : Fin 4) = 0 := congrFun ht 3
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-- The array after the kernel's run. -/
theorem final (c : Dev nD) :
    (dat1 V c).arrAt 3 cfg1.N = attArr (V c main_v6_0) (V c main_v6_1) (V c main_v6_2) :=
  (dat1 V c).arrAt_eq_of_cover 3 _ (fun t _ => flushed_eq V c t) cover

end Cert.KernelIdeal.Region1

end
-- ==== Proof.K2Pay.lean ====
/-
  The output-projection kernel's stored block, read at an index.

  At one grid point the kernel holds 512 positions of every head's attended values (a `[1, 16, 512, 64]` block), the whole
  transposed output weight `[1024, 1024]` and the bias row `[1, 1024]`. It puts the position axis first, lays the 16 heads
  of width 64 side by side (`e = h · 64 + d`), multiplies and adds the bias. So the stored block at `(r, o)` is
  `∑ e, a (e / 64, r, e % 64) · wT (e, o) + bias o`.
-/
import proofs.«127646_j18081812316199_2_alg».proof.Proof.Gen.KernelIdeal.Skeleton
import proofs.«127646_j18081812316199_2_alg».proof.Proof.Spec
import proofs.«127646_j18081812316199_2_alg».proof.Proof.LibMatDot
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx Cert.Spec Cert.Lib
open scoped BigOperators

/-- The stored block at `(r, o)`. -/
theorem pay_out_apply (x0 : Vec Ideal S1x16x512x64 .bf16) (x1 : Vec Ideal S1024x1024 .bf16) (x2 : Vec Ideal S1x1024 .f32)
    (u : Fin 1) (r : Fin 512) (o : Fin 1024) :
    k2_pay1 (F := Ideal) x0 x1 x2 (ix3 u r o)
      = (∑ e : Fin 1024, x0 (ix4 (0 : Fin 1) (headOf e) r (coordOf e)) * x1 (ix2 e o)) + x2 (ix2 (0 : Fin 1) o) := by
  unfold k2_pay1
  refine (shapeCast_apply _ shapeCasts_S512x1024_S1x512x1024 (ix3 u r o) (ix2 r o) (by
    rw [Shape.rowMajor_val_two, Shape.rowMajor_val_three]
    show r.val * 1024 + o.val = (u.val * 512 + r.val) * 1024 + o.val
    have := u.isLt; omega)).trans ?_
  rw [addf_apply]
  congr 1
  · refine (matmul_plain_zero_apply dot_S512x1024_S1024x1024_S512x1024_1_0_0_1_n_n_wf none _ _ r o).trans ?_
    refine Finset.sum_congr rfl fun e _ => ?_
    rw [shapeCast_self]
    congr 1
    refine (shapeCast_apply _ shapeCasts_S512x16x64_S512x1024 (ix2 r e) (ix3 r (headOf e) (coordOf e)) (by
      rw [Shape.rowMajor_val_three, Shape.rowMajor_val_two]
      show (r.val * 16 + e.val / 64) * 64 + e.val % 64 = r.val * 1024 + e.val
      have := e.isLt; omega)).trans ?_
    refine (transpose_apply [1, 0, 2] _ transposes_S16x512x64_p1_0_2_S512x16x64 (ix3 r (headOf e) (coordOf e))
      (ix3 (headOf e) r (coordOf e)) (fun b => match b with | ⟨0, _⟩ => rfl | ⟨1, _⟩ => rfl | ⟨2, _⟩ => rfl)).trans ?_
    exact shapeCast_apply x0 shapeCasts_S1x16x512x64_S16x512x64 (ix3 (headOf e) r (coordOf e))
      (ix4 (0 : Fin 1) (headOf e) r (coordOf e)) (by
        rw [Shape.rowMajor_val_four, Shape.rowMajor_val_three]
        show ((0 * 16 + (headOf e).val) * 512 + r.val) * 64 + (coordOf e).val = ((headOf e).val * 512 + r.val) * 64 + (coordOf e).val
        omega)
  · rw [shapeCast_self]
    exact broadcastTo_apply x2 broadcasts_S1x1024_S512x1024 (ix2 r o) (ix2 (0 : Fin 1) o) (fun a => match a with
      | ⟨0, _⟩ => by show 0 = if (1 : Nat) = 1 then 0 else r.val; rw [if_pos rfl]
      | ⟨1, _⟩ => by show o.val = if (1024 : Nat) = 1 then 0 else o.val; rw [if_neg (by decide)])

end Cert.KernelIdeal.Pay

end
-- ==== Proof.Region2.lean ====
/-
  The output-projection kernel's result array, whole.

  The grid is 2 batches by 4 row tiles. At point `(b, i)` the kernel reads positions `[512 i, 512 i + 512)` of every head
  of batch `b`, the whole transposed output weight and the bias row, and writes rows `[512 i, 512 i + 512)` of batch `b` of
  the result. The tiles cover the `[2, 2048, 1024]` array, so it ends holding, at `(b, s, o)`,
  `∑ e, a (b, e / 64, s, e % 64) · wT (e, o) + bias o` of the arrays the kernel finds.
-/
import proofs.«127646_j18081812316199_2_alg».proof.Proof.Gen.KernelIdeal.Frame
import proofs.«127646_j18081812316199_2_alg».proof.Proof.K2Pay
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen Cert.KernelIdeal.Pay Cert.Spec Idealize.ShloMosaic.ValueIdx
open scoped BigOperators

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The projection of the merged heads, over the attended values, the transposed weight `[1024, 1024]` and the bias row
    `[1, 1024]`. -/
def mergedArr (A : S2x16x2048x64.Idx → EReal) (WT : S1024x1024.Idx → EReal) (B2 : S1x1024.Idx → EReal) :
    S2x2048x1024.Idx → EReal :=
  fun j => (∑ e : Fin 1024,
      A (ix4 (⟨(j 0).val, (j 0).isLt⟩ : Fin 2) (headOf e) (⟨(j 1).val, (j 1).isLt⟩ : Fin 2048) (coordOf e))
        * WT (ix2 e (⟨(j 2).val, (j 2).isLt⟩ : Fin 1024)))
    + B2 (ix2 (0 : Fin 1) (⟨(j 2).val, (j 2).isLt⟩ : Fin 1024))

/-- The printed index maps over the grid: the input tile moves with the output tile, the weight and the bias stay. -/
theorem idx_facts : ∀ t : Fin cfg2.N,
    win2_0.index t (0 : Fin 4) = win2_3.index t (0 : Fin 3) ∧ win2_0.index t (1 : Fin 4) = 0
    ∧ win2_0.index t (2 : Fin 4) = win2_3.index t (1 : Fin 3) ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (2 : Fin 3) = 0 :=
  (by decide +kernel : ∀ t : Fin grid2.N, _)

/-- Every tile of the array is some point's. -/
theorem idx_onto : ∀ (q0 : Fin 2) (q1 : Fin 4), ∃ t : Fin cfg2.N, win2_3.index t = ![q0.val, q1.val, 0] :=
  (by decide +kernel : ∀ (q0 : Fin 2) (q1 : Fin 4), ∃ t : Fin grid2.N, win2_3.index t = ![q0.val, q1.val, 0])

/-- What point `t` writes back is tile `t` of the projection of the arrays the kernel finds. -/
theorem flushed_eq (c : Dev nD) (t : Fin cfg2.N) :
    (dat2 V c).flushed 3 t = ((cfg2.win 3).blk t).view.read (Elt Ideal)
      (mergedArr (V c main_v7) (V c main_v4) (V c main_v5)) := by
  show (cfg2.win 3).cut (grid2.coords t) ((dat2 V c).after 3 t) = _
  rw [after2_3]
  unfold out2_3
  rw [View.canon_unit_zero hz3]
  simp only [View.ld_unit_zero (S := S1x16x512x64) hz4, View.ld_unit_zero (S := S1024x1024) hz2, View.ld_unit_zero (S := S1x1024) hz2]
  obtain ⟨e0, e1, e2, e3, e4, e5, e6, e7, e8⟩ := idx_facts t
  funext y
  obtain ⟨u, r, o, rfl⟩ : ∃ (u : Fin 1) (r : Fin 512) (o : Fin 1024), y = ix3 u r o := ⟨y 0, y 1, y 2, eq_ix3 y⟩
  refine (pay_out_apply (iblk2 V c 0 t) (iblk2 V c 1 t) (iblk2 V c 2 t) u r o).trans ?_
  rw [View.read_apply]
  unfold mergedArr
  have hu : u.val = 0 := by have := u.isLt; omega
  congr 1
  · refine Finset.sum_congr rfl fun e _ => ?_
    congr 1
    · unfold iblk2
      rw [View.read_apply]
      show V c main_v7 _ = V c main_v7 _
      congr 1
      funext a
      apply Fin.ext
      match a with
      | ⟨0, _⟩ => show win2_0.index t (0 : Fin 4) * 1 + 1 * 0 = win2_3.index t (0 : Fin 3) * 1 + 1 * u.val; omega
      | ⟨1, _⟩ => show win2_0.index t (1 : Fin 4) * 16 + 1 * (e.val / 64) = e.val / 64; omega
      | ⟨2, _⟩ => show win2_0.index t (2 : Fin 4) * 512 + 1 * r.val = win2_3.index t (1 : Fin 3) * 512 + 1 * r.val; omega
      | ⟨3, _⟩ => show win2_0.index t (3 : Fin 4) * 64 + 1 * (e.val % 64) = e.val % 64; omega
    · unfold iblk2
      rw [View.read_apply]
      show V c main_v4 _ = V c main_v4 _
      congr 1
      funext a
      apply Fin.ext
      match a with
      | ⟨0, _⟩ => show win2_1.index t (0 : Fin 2) * 1024 + 1 * e.val = e.val; omega
      | ⟨1, _⟩ => show win2_1.index t (1 : Fin 2) * 1024 + 1 * o.val = win2_3.index t (2 : Fin 3) * 1024 + 1 * o.val; omega
  · unfold iblk2
    rw [View.read_apply]
    show V c main_v5 _ = V c main_v5 _
    congr 1
    funext a
    apply Fin.ext
    match a with
    | ⟨0, _⟩ => show win2_2.index t (0 : Fin 2) * 1 + 1 * 0 = 0; omega
    | ⟨1, _⟩ => show win2_2.index t (1 : Fin 2) * 1024 + 1 * o.val = win2_3.index t (2 : Fin 3) * 1024 + 1 * o.val; omega

/-- An index of the array is in point `t`'s tile iff each coordinate is in the tile's range on its axis. -/
theorem mem_blk (t : Fin cfg2.N) (i : S2x2048x1024.Idx) :
    i ∈ ((cfg2.win 3).blk t).view.set ↔ ∀ a : Fin 3, win2_3.index t a * S1x512x1024.size a ≤ (i a).val
      ∧ (i a).val < win2_3.index t a * S1x512x1024.size a + S1x512x1024.size a := by
  show i ∈ ((View.whole main_v8).slice (win2_3.rect t)).set ↔ _
  rw [View.set_slice_whole, Rect.mem_set_unit]
  exact Iff.rfl

/-- The tiles cover the array. -/
theorem cover (i : S2x2048x1024.Idx) :
    ∃ t : Fin cfg2.N, (cfg2.win 3).flush t = true ∧ i ∈ ((cfg2.win 3).blk t).view.set := by
  have hi0 : (i 0).val < 2 := (i 0).isLt
  have hi1 : (i 1).val < 2048 := (i 1).isLt
  have hi2 : (i 2).val < 1024 := (i 2).isLt
  obtain ⟨t, ht⟩ := idx_onto ⟨(i 0).val, hi0⟩ ⟨(i 1).val / 512, by omega⟩
  have q0 : win2_3.index t (0 : Fin 3) = (i 0).val := congrFun ht 0
  have q1 : win2_3.index t (1 : Fin 3) = (i 1).val / 512 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 512 ≤ (i 1).val ∧ (i 1).val < win2_3.index t (1 : Fin 3) * 512 + 512; omega
  | ⟨2, _⟩ => show win2_3.index t (2 : Fin 3) * 1024 ≤ (i 2).val ∧ (i 2).val < win2_3.index t (2 : Fin 3) * 1024 + 1024; omega

/-- The array after the kernel's run. -/
theorem final (c : Dev nD) :
    (dat2 V c).arrAt 3 cfg2.N = mergedArr (V c main_v7) (V c main_v4) (V c main_v5) :=
  (dat2 V c).arrAt_eq_of_cover 3 _ (fun t _ => flushed_eq V c t) cover

end Cert.KernelIdeal.Region2

end
-- ==== Proof.Chain.lean ====
/-
  From the boundary contents to the specification.

  Before the first kernel the host transposes each weight matrix and views each bias vector as one row; the first
  kernel's three arrays are then the query, key and value parts of the packed projection of `x`; the second kernel's array
  is their attention; the third kernel's array is the output projection of that. Read through the folds of contents at
  the boundaries, the result buffer after the last kernel holds the specification's function of the five arguments.
-/
import proofs.«127646_j18081812316199_2_alg».proof.Proof.Gen.KernelIdeal.Frame
import proofs.«127646_j18081812316199_2_alg».proof.Proof.Region0
import proofs.«127646_j18081812316199_2_alg».proof.Proof.Region1
import proofs.«127646_j18081812316199_2_alg».proof.Proof.Region2
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen Cert.Spec Idealize.ShloMosaic.ValueIdx
open scoped BigOperators

variable (m : (ℓ : Loc nD τ sig) → Buf (Elt Ideal) ℓ) (ρ : Dev nD → PrngReg)

/-! ## The host operations before the first kernel -/

theorem entry_x (c : Dev nD) : V1 m ρ c main_arg0 = m ((c : Thread nD τ).loc main_arg0) := by
  show StableHlo.after hostOps0 (W0 m ρ c) (Proc.devRef .tc main_arg0) = _
  after_results

theorem entry_wT (c : Dev nD) : (V1 m ρ c main_v1 : FVec Ideal S1024x3072 .bf16)
    = truncf (F := Ideal) .bf16 (transpose S1024x3072 [1, 0] (m ((c : Thread nD τ).loc main_arg1) : FVec Ideal S3072x1024 .f32)
        transposes_S3072x1024_S1024x3072_1_0) bitsLt_bf16_f32 := by
  show StableHlo.after hostOps0 (W0 m ρ c) (Proc.devRef .tc main_v1) = _
  after_results

theorem entry_b (c : Dev nD) : (V1 m ρ c main_v2 : S1x3072.Idx → EReal)
    = shapeCast S1x3072 (m ((c : Thread nD τ).loc main_arg2)) shapeCasts_S3072_S1x3072 := by
  show StableHlo.after hostOps0 (W0 m ρ c) (Proc.devRef .tc main_v2) = _
  after_results
  rfl

theorem entry_woT (c : Dev nD) : (V1 m ρ c main_v4 : FVec Ideal S1024x1024 .bf16)
    = truncf (F := Ideal) .bf16 (transpose S1024x1024 [1, 0] (m ((c : Thread nD τ).loc main_arg3) : FVec Ideal S1024x1024 .f32)
        transposes_S1024x1024_S1024x1024_1_0) bitsLt_bf16_f32 := by
  show StableHlo.after hostOps0 (W0 m ρ c) (Proc.devRef .tc main_v4) = _
  after_results

theorem entry_bo (c : Dev nD) : (V1 m ρ c main_v5 : S1x1024.Idx → EReal)
    = shapeCast S1x1024 (m ((c : Thread nD τ).loc main_arg4)) shapeCasts_S1024_S1x1024 := by
  show StableHlo.after hostOps0 (W0 m ρ c) (Proc.devRef .tc main_v5) = _
  after_results
  rfl

/-- The transposed weight at `(i, o)` is the weight at `(o, i)`. -/
theorem entry_wT_apply (c : Dev nD) (i : Fin 1024) (o : Fin 3072) :
    (V1 m ρ c main_v1 : S1024x3072.Idx → EReal) (ix2 i o) = (m ((c : Thread nD τ).loc main_arg1) : S3072x1024.Idx → EReal) (ix2 o i) := by
  rw [entry_wT, truncf_apply]
  exact transpose_apply [1, 0] _ transposes_S3072x1024_S1024x3072_1_0 (ix2 i o) (ix2 o i)
    (fun b => match b with | ⟨0, _⟩ => rfl | ⟨1, _⟩ => rfl)

theorem entry_woT_apply (c : Dev nD) (e o : Fin 1024) :
    (V1 m ρ c main_v4 : S1024x1024.Idx → EReal) (ix2 e o) = (m ((c : Thread nD τ).loc main_arg3) : S1024x1024.Idx → EReal) (ix2 o e) := by
  rw [entry_woT, truncf_apply]
  exact transpose_apply [1, 0] _ transposes_S1024x1024_S1024x1024_1_0 (ix2 e o) (ix2 o e)
    (fun b => match b with | ⟨0, _⟩ => rfl | ⟨1, _⟩ => rfl)

/-- The bias row at `(0, o)` is the bias at `o`. -/
theorem entry_b_apply (c : Dev nD) (o : Fin 3072) :
    (V1 m ρ c main_v2 : S1x3072.Idx → EReal) (ix2 (0 : Fin 1) o) = (m ((c : Thread nD τ).loc main_arg2) : S3072.Idx → EReal) (ix1 o) := by
  rw [entry_b]
  exact shapeCast_apply _ shapeCasts_S3072_S1x3072 (ix2 (0 : Fin 1) o) (ix1 o) (by
    rw [Shape.rowMajor_val_one, Shape.rowMajor_val_two]
    show o.val = 0 * 3072 + o.val
    omega)

theorem entry_bo_apply (c : Dev nD) (o : Fin 1024) :
    (V1 m ρ c main_v5 : S1x1024.Idx → EReal) (ix2 (0 : Fin 1) o) = (m ((c : Thread nD τ).loc main_arg4) : S1024.Idx → EReal) (ix1 o) := by
  rw [entry_bo]
  exact shapeCast_apply _ shapeCasts_S1024_S1x1024 (ix2 (0 : Fin 1) o) (ix1 o) (by
    rw [Shape.rowMajor_val_one, Shape.rowMajor_val_two]
    show o.val = 0 * 1024 + o.val
    omega)

/-! ## The first kernel's arrays are the three parts of the packed projection -/

theorem part_eq (off : ℕ) (hoff : off + 64 ≤ 192) (c : Dev nD) :
    Region0.partArr off hoff (V1 m ρ c main_arg0) (V1 m ρ c main_v1) (V1 m ρ c main_v2)
      = headArr off hoff (m ((c : Thread nD τ).loc main_arg0)) (m ((c : Thread nD τ).loc main_arg1)) (m ((c : Thread nD τ).loc main_arg2)) := by
  funext j
  unfold Region0.partArr headArr proj
  rw [entry_x, entry_b_apply]
  congr 1
  refine Finset.sum_congr rfl fun i _ => ?_
  rw [entry_wT_apply]

theorem q_arr (c : Dev nD) : (V2 m ρ c main_v6_0 : S2x16x2048x64.Idx → EReal)
    = headArr 0 (by omega) (m ((c : Thread nD τ).loc main_arg0)) (m ((c : Thread nD τ).loc main_arg1)) (m ((c : Thread nD τ).loc main_arg2)) :=
  (W2_arr m ρ c 3).trans ((Region0.final3 (V1 m ρ) c).trans (part_eq m ρ 0 (by omega) c))

theorem k_arr (c : Dev nD) : (V2 m ρ c main_v6_1 : S2x16x2048x64.Idx → EReal)
    = headArr 64 (by omega) (m ((c : Thread nD τ).loc main_arg0)) (m ((c : Thread nD τ).loc main_arg1)) (m ((c : Thread nD τ).loc main_arg2)) :=
  (W2_arr m ρ c 4).trans ((Region0.final4 (V1 m ρ) c).trans (part_eq m ρ 64 (by omega) c))

theorem v_arr (c : Dev nD) : (V2 m ρ c main_v6_2 : S2x16x2048x64.Idx → EReal)
    = headArr 128 (by omega) (m ((c : Thread nD τ).loc main_arg0)) (m ((c : Thread nD τ).loc main_arg1)) (m ((c : Thread nD τ).loc main_arg2)) :=
  (W2_arr m ρ c 5).trans ((Region0.final5 (V1 m ρ) c).trans (part_eq m ρ 128 (by omega) c))

/-! ## The second kernel's array is their attention -/

theorem att_arr (c : Dev nD) : (V3 m ρ c main_v7 : S2x16x2048x64.Idx → EReal)
    = attArr
        (headArr 0 (by omega) (m ((c : Thread nD τ).loc main_arg0)) (m ((c : Thread nD τ).loc main_arg1)) (m ((c : Thread nD τ).loc main_arg2)))
        (headArr 64 (by omega) (m ((c : Thread nD τ).loc main_arg0)) (m ((c : Thread nD τ).loc main_arg1)) (m ((c : Thread nD τ).loc main_arg2)))
        (headArr 128 (by omega) (m ((c : Thread nD τ).loc main_arg0)) (m ((c : Thread nD τ).loc main_arg1)) (m ((c : Thread nD τ).loc main_arg2))) := by
  refine (W3_arr m ρ c 3).trans ((Region1.final (V2 m ρ) c).trans ?_)
  rw [q_arr, k_arr, v_arr]

/-! ## The output weight and bias reach the third kernel as the host left them -/

theorem exit_woT (c : Dev nD) : V3 m ρ c main_v4 = V1 m ρ c main_v4 :=
  (W3_of_ne m ρ c main_v4 (by decide)).trans (W2_of_ne m ρ c main_v4 (by decide))

theorem exit_bo (c : Dev nD) : V3 m ρ c main_v5 = V1 m ρ c main_v5 :=
  (W3_of_ne m ρ c main_v5 (by decide)).trans (W2_of_ne m ρ c main_v5 (by decide))

/-! ## The result -/

/-- The result buffer after the last kernel holds the layer's function of the five arguments. -/
theorem result_eq (c : Dev nD) : (W4 m ρ c (Proc.devRef .tc main_v8) : S2x2048x1024.Idx → EReal)
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 3).trans ((Region2.final (V3 m ρ) c).trans ?_)
  rw [att_arr, exit_woT, exit_bo]
  unfold G
  funext j
  unfold Region2.mergedArr outArr
  rw [entry_bo_apply]
  congr 1
  refine Finset.sum_congr rfl fun e _ => ?_
  rw [entry_woT_apply]

end Cert.KernelIdeal.Chain

end
-- ==== Proof.RefSpec.lean ====
/-
  The reference program's result is the specification function.

  The reference computes multi-head attention as a chain of whole-array operations: a packed projection, a reshape,
  a transpose and three slices into queries, keys and values; scores, a row maximum, exponentials, their sum, the
  quotient, the product with the values; a transpose and reshape back; the output projection. Read at one index,
  each array is the corresponding piece of the specification; the index arithmetic of the two reshapes is the
  regrouping `(b·2048 + s)·3072 + (h·192 + c)` and `e = h·64 + d`.
-/
import proofs.«127646_j18081812316199_2_alg».proof.Proof.Gen.ReferenceIdeal.Read
import proofs.«127646_j18081812316199_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The packed projection and its three parts -/

/-- The packed projection with its bias, read at `(b, s, o)`. -/
theorem v3_apply (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (s : Fin 2048) (o : Fin 3072) :
    val_main_v3 (F := Ideal) x0 x1 x2 (ix3 b s o) = Spec.proj x0 x1 x2 b s o := by
  rw [val_main_v3_apply, val_main_v0_apply, val_main_v2_apply, val_main_v1_apply]
  have el : ∀ k : Fin 1024, lidx_main_v0 (ix3 b s o) k = ix3 b s k := fun k => funext fun a =>
    match a with | ⟨0, _⟩ => rfl | ⟨1, _⟩ => rfl | ⟨2, _⟩ => rfl
  have er : ∀ k : Fin 1024, ridx_main_v0 (ix3 b s o) k = ix2 o k := fun k => funext fun a =>
    match a with | ⟨0, _⟩ => rfl | ⟨1, _⟩ => rfl
  have eb : idx_main_v1 (idx_main_v2 (ix3 b s o)) = ix1 o := funext fun a =>
    match a with | ⟨0, _⟩ => rfl
  rw [eb]
  simp only [el, er]
  rfl

/-- The reshape, transpose and slice at offset `off` read the packed projection at column `h·192 + off + d`:
    `((b·2048 + s)·16 + h)·192 + (off + d)` regroups as `(b·2048 + s)·3072 + (h·192 + off + d)`. -/
theorem v6_eq (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) :
    val_main_v6 (F := Ideal) x0 x1 x2 = Spec.headArr 0 (by omega) x0 x1 x2 := by
  funext j
  obtain ⟨b, h, s, d, rfl⟩ : ∃ (b : Fin 2) (h : Fin 16) (s : Fin 2048) (d : Fin 64), j = ix4 b h s d :=
    ⟨j 0, j 1, j 2, j 3, eq_ix4 j⟩
  rw [val_main_v6_apply, val_main_v5_apply, val_main_v4_apply]
  have e : idx_main_v4 (idx_main_v5 (idx_main_v6 (ix4 b h s d))) = ix3 b s (Spec.col 0 (by omega) h d) := by
    funext a
    apply Fin.ext
    have hb := b.isLt; have hh := h.isLt; have hs := s.isLt; have hd := d.isLt
    match a with
    | ⟨0, _⟩ => show (((b.val * 2048 + s.val) * 16 + h.val) * 192 + d.val) / 6291456 = b.val; omega
    | ⟨1, _⟩ => show (((b.val * 2048 + s.val) * 16 + h.val) * 192 + d.val) / 3072 % 2048 = s.val; omega
    | ⟨2, _⟩ => show (((b.val * 2048 + s.val) * 16 + h.val) * 192 + d.val) % 3072 = h.val * 192 + 0 + d.val; omega
  rw [e, v3_apply]
  rfl

theorem v7_eq (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) :
    val_main_v7 (F := Ideal) x0 x1 x2 = Spec.headArr 64 (by omega) x0 x1 x2 := by
  funext j
  obtain ⟨b, h, s, d, rfl⟩ : ∃ (b : Fin 2) (h : Fin 16) (s : Fin 2048) (d : Fin 64), j = ix4 b h s d :=
    ⟨j 0, j 1, j 2, j 3, eq_ix4 j⟩
  rw [val_main_v7_apply, val_main_v5_apply, val_main_v4_apply]
  have e : idx_main_v4 (idx_main_v5 (idx_main_v7 (ix4 b h s d))) = ix3 b s (Spec.col 64 (by omega) h d) := by
    funext a
    apply Fin.ext
    have hb := b.isLt; have hh := h.isLt; have hs := s.isLt; have hd := d.isLt
    match a with
    | ⟨0, _⟩ => show (((b.val * 2048 + s.val) * 16 + h.val) * 192 + (64 + d.val)) / 6291456 = b.val; omega
    | ⟨1, _⟩ => show (((b.val * 2048 + s.val) * 16 + h.val) * 192 + (64 + d.val)) / 3072 % 2048 = s.val; omega
    | ⟨2, _⟩ => show (((b.val * 2048 + s.val) * 16 + h.val) * 192 + (64 + d.val)) % 3072 = h.val * 192 + 64 + d.val; omega
  rw [e, v3_apply]
  rfl

theorem v8_eq (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) :
    val_main_v8 (F := Ideal) x0 x1 x2 = Spec.headArr 128 (by omega) x0 x1 x2 := by
  funext j
  obtain ⟨b, h, s, d, rfl⟩ : ∃ (b : Fin 2) (h : Fin 16) (s : Fin 2048) (d : Fin 64), j = ix4 b h s d :=
    ⟨j 0, j 1, j 2, j 3, eq_ix4 j⟩
  rw [val_main_v8_apply, val_main_v5_apply, val_main_v4_apply]
  have e : idx_main_v4 (idx_main_v5 (idx_main_v8 (ix4 b h s d))) = ix3 b s (Spec.col 128 (by omega) h d) := by
    funext a
    apply Fin.ext
    have hb := b.isLt; have hh := h.isLt; have hs := s.isLt; have hd := d.isLt
    match a with
    | ⟨0, _⟩ => show (((b.val * 2048 + s.val) * 16 + h.val) * 192 + (128 + d.val)) / 6291456 = b.val; omega
    | ⟨1, _⟩ => show (((b.val * 2048 + s.val) * 16 + h.val) * 192 + (128 + d.val)) / 3072 % 2048 = s.val; omega
    | ⟨2, _⟩ => show (((b.val * 2048 + s.val) * 16 + h.val) * 192 + (128 + d.val)) % 3072 = h.val * 192 + 128 + d.val; omega
  rw [e, v3_apply]
  rfl

/-! ## The scores -/

/-- The word `0x42800000` denotes `64`. -/
theorem ofBits_64 : Ideal.ofBits .f32 0x42800000#32 = ((64 : ℝ) : EReal) := by
  simp [Ideal.ofBits, Ideal.ieee, -EReal.coe_mul]; norm_num

/-- The word `0x3E000000` denotes one eighth. -/
theorem ofBits_eighth : Ideal.ofBits .f32 0x3E000000#32 = ((1 / 8 : ℝ) : EReal) := by
  simp [Ideal.ofBits, Ideal.ieee, -EReal.coe_mul]; norm_num

/-- Dividing by the square root of `64` is multiplying by one eighth, at the infinities too. -/
theorem div_sqrt64 (y : EReal) :
    Ideal.div y (Ideal.sqrt (Ideal.ofBits .f32 0x42800000#32)) = y * Ideal.ofBits .f32 0x3E000000#32 := by
  have h8 : Real.sqrt 64 = 8 := by
    rw [show (64 : ℝ) = 8 * 8 by norm_num]; exact Real.sqrt_mul_self (by norm_num)
  rw [ofBits_64, ofBits_eighth, Ideal.sqrt_coe, if_neg (by norm_num), h8, Ideal.div_coe (by norm_num)]

/-- The scaled scores at `(b, h, s, j)`: query row `s` of head `(b, h)` against key `j`. -/
theorem v12_apply (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (s j : Fin 2048) :
    val_main_v12 (F := Ideal) x0 x1 x2 (ix4 b h s j)
      = Spec.score (fun d => val_main_v6 (F := Ideal) x0 x1 x2 (ix4 b h s d))
          (fun jj d => val_main_v7 (F := Ideal) x0 x1 x2 (ix4 b h jj d)) j := by
  rw [val_main_v12_apply, val_main_v9_apply, val_main_v11_apply, val_main_v10_apply, val_main_cst_apply]
  have el : ∀ k : Fin 64, lidx_main_v9 (ix4 b h s j) k = ix4 b h s k := fun k => funext fun a =>
    match a with | ⟨0, _⟩ => rfl | ⟨1, _⟩ => rfl | ⟨2, _⟩ => rfl | ⟨3, _⟩ => rfl
  have er : ∀ k : Fin 64, ridx_main_v9 (ix4 b h s j) k = ix4 b h j k := fun k => funext fun a =>
    match a with | ⟨0, _⟩ => rfl | ⟨1, _⟩ => rfl | ⟨2, _⟩ => rfl | ⟨3, _⟩ => rfl
  simp only [el, er]
  exact div_sqrt64 _

/-! ## The row maximum -/

/-- At the extended reals the float maximum is `max`, so a fold of one is a fold of the other. -/
theorem fold_maximumf {n : ℕ} (c : EReal) (f : Fin n → EReal) :
    (Finset.univ : Finset (Fin n)).fold (FloatOps.maximumf (F := Ideal) (φ := .f32)) c f
      = (Finset.univ : Finset (Fin n)).fold max c f := rfl

/-- The score array drops its last axis onto `[2, 16, 2048]`. -/
theorem reduces_scores : S2x16x2048x2048.Reduces [3] S2x16x2048 := by decide

/-- The reduced index `(b, h, s)` with `k` put back on the last axis is `(b, h, s, k)`. -/
theorem lift_scores (b : Fin 2) (h : Fin 16) (s : Fin 2048) (k : Fin 2048) :
    reduces_scores.lift (ix3 b h s) k = ix4 b h s k := funext fun c => Fin.ext (by
  match c with | ⟨0, _⟩ => rfl | ⟨1, _⟩ => rfl | ⟨2, _⟩ => rfl | ⟨3, _⟩ => rfl)

/-- The maximum over the last axis at `(b, h, s)`: the fold of `max` over the row's scores from the initial value. -/
theorem v13_apply (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (s : Fin 2048) :
    val_main_v13 (F := Ideal) x0 x1 x2 (ix3 b h s)
      = (Finset.univ : Finset (Fin 2048)).fold max (Ideal.ofBits .f32 0xFF800000#32)
          (fun j => val_main_v12 (F := Ideal) x0 x1 x2 (ix4 b h s j)) := by
  unfold val_main_v13
  rw [Host.reduce_eq_fold_single FloatOps.maximumf _ _ _ reduces_scores]
  refine (fold_maximumf (n := 2048) _ _).trans ?_
  have hinit : val_main_cst_0 (F := Ideal) (Shape.Idx.first h_S_) = Ideal.ofBits .f32 0xFF800000#32 := rfl
  have hf : (val_main_v12 (F := Ideal) x0 x1 x2 ∘ reduces_scores.lift (ix3 b h s))
      = fun j : Fin 2048 => val_main_v12 (F := Ideal) x0 x1 x2 (ix4 b h s j) :=
    funext fun k => congrArg (val_main_v12 (F := Ideal) x0 x1 x2) (lift_scores b h s k)
  rw [hinit, hf]

/-- Taking the maximum with the initial value again changes nothing: the fold starts from it. -/
theorem v15_apply (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (s : Fin 2048) :
    val_main_v15 (F := Ideal) x0 x1 x2 (ix3 b h s)
      = Spec.rowMax (fun d => val_main_v6 (F := Ideal) x0 x1 x2 (ix4 b h s d))
          (fun jj d => val_main_v7 (F := Ideal) x0 x1 x2 (ix4 b h jj d)) := by
  rw [val_main_v15_apply, val_main_v14_apply, val_main_cst_1_apply, v13_apply]
  simp only [v12_apply]
  exact max_eq_right ((Finset.le_fold_max _).mpr (Or.inl le_rfl))

/-! ## The softmax weights and the attended values -/

/-- The exponential of a score below its row's maximum, at `(b, h, s, j)`. -/
theorem v19_apply (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (s j : Fin 2048) :
    val_main_v19 (F := Ideal) x0 x1 x2 (ix4 b h s j)
      = Spec.expo (fun d => val_main_v6 (F := Ideal) x0 x1 x2 (ix4 b h s d))
          (fun jj d => val_main_v7 (F := Ideal) x0 x1 x2 (ix4 b h jj d)) j := by
  rw [val_main_v19_apply, val_main_v18_apply, val_main_v17_apply, val_main_v16_apply]
  have e : idx_main_v16 (idx_main_v17 (ix4 b h s j)) = ix3 b h s := funext fun a =>
    match a with | ⟨0, _⟩ => rfl | ⟨1, _⟩ => rfl | ⟨2, _⟩ => rfl
  rw [e, v15_apply, v12_apply]
  rfl

/-- The row's sum of exponentials, at `(b, h, s)`: the initial value is zero. -/
theorem v20_apply (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (s : Fin 2048) :
    val_main_v20 (F := Ideal) x0 x1 x2 (ix3 b h s)
      = Spec.denom (fun d => val_main_v6 (F := Ideal) x0 x1 x2 (ix4 b h s d))
          (fun jj d => val_main_v7 (F := Ideal) x0 x1 x2 (ix4 b h jj d)) := by
  rw [val_main_v20_apply, val_main_cst_2_apply]
  have e : ∀ k : Fin 2048, idx_main_v20 (ix3 b h s) k = ix4 b h s k := fun k => funext fun a =>
    match a with | ⟨0, _⟩ => rfl | ⟨1, _⟩ => rfl | ⟨2, _⟩ => rfl | ⟨3, _⟩ => rfl
  simp only [e, v19_apply]
  show Ideal.ofBits .f32 0x00000000#32 + _ = _
  rw [Ideal.ofBits_zero_f32, zero_add]
  rfl

/-- The softmax weight at `(b, h, s, j)`. -/
theorem v23_apply (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (h : Fin 16) (s j : Fin 2048) :
    val_main_v23 (F := Ideal) x0 x1 x2 (ix4 b h s j)
      = Ideal.div
          (Spec.expo (fun d => val_main_v6 (F := Ideal) x0 x1 x2 (ix4 b h s d))
            (fun jj d => val_main_v7 (F := Ideal) x0 x1 x2 (ix4 b h jj d)) j)
          (Spec.denom (fun d => val_main_v6 (F := Ideal) x0 x1 x2 (ix4 b h s d))
            (fun jj d => val_main_v7 (F := Ideal) x0 x1 x2 (ix4 b h jj d))) := by
  rw [val_main_v23_apply, val_main_v22_apply, val_main_v21_apply]
  have e : idx_main_v21 (idx_main_v22 (ix4 b h s j)) = ix3 b h s := funext fun a =>
    match a with | ⟨0, _⟩ => rfl | ⟨1, _⟩ => rfl | ⟨2, _⟩ => rfl
  rw [e, v20_apply, v19_apply]
  rfl

/-- The attended values: every head's weights against its values. -/
theorem v24_eq (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) :
    val_main_v24 (F := Ideal) x0 x1 x2
      = Spec.attArr (val_main_v6 (F := Ideal) x0 x1 x2) (val_main_v7 (F := Ideal) x0 x1 x2) (val_main_v8 (F := Ideal) x0 x1 x2) := by
  funext j
  obtain ⟨b, h, s, d, rfl⟩ : ∃ (b : Fin 2) (h : Fin 16) (s : Fin 2048) (d : Fin 64), j = ix4 b h s d :=
    ⟨j 0, j 1, j 2, j 3, eq_ix4 j⟩
  rw [val_main_v24_apply]
  have el : ∀ k : Fin 2048, lidx_main_v24 (ix4 b h s d) k = ix4 b h s k := fun k => funext fun a =>
    match a with | ⟨0, _⟩ => rfl | ⟨1, _⟩ => rfl | ⟨2, _⟩ => rfl | ⟨3, _⟩ => rfl
  have er : ∀ k : Fin 2048, ridx_main_v24 (ix4 b h s d) k = ix4 b h k d := fun k => funext fun a =>
    match a with | ⟨0, _⟩ => rfl | ⟨1, _⟩ => rfl | ⟨2, _⟩ => rfl | ⟨3, _⟩ => rfl
  simp only [el, er, v23_apply]
  rfl

/-! ## The heads side by side and the output projection -/

/-- The transpose and reshape back read the attended values at head `e / 64`, coordinate `e % 64`; the output
    projection sums over `e` and adds its bias. -/
theorem v30_eq (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) :
    val_main_v30 (F := Ideal) x0 x1 x2 x3 x4 = Spec.outArr (val_main_v24 (F := Ideal) x0 x1 x2) x3 x4 := by
  funext j
  obtain ⟨b, s, o, rfl⟩ : ∃ (b : Fin 2) (s : Fin 2048) (o : Fin 1024), j = ix3 b s o := ⟨j 0, j 1, j 2, eq_ix3 j⟩
  rw [val_main_v30_apply, val_main_v27_apply, val_main_v29_apply, val_main_v28_apply]
  have eb : idx_main_v28 (idx_main_v29 (ix3 b s o)) = ix1 o := funext fun a =>
    match a with | ⟨0, _⟩ => rfl
  have er : ∀ k : Fin 1024, ridx_main_v27 (ix3 b s o) k = ix2 o k := fun k => funext fun a =>
    match a with | ⟨0, _⟩ => rfl | ⟨1, _⟩ => rfl
  have el : ∀ k : Fin 1024, val_main_v26 (F := Ideal) x0 x1 x2 (lidx_main_v27 (ix3 b s o) k)
      = val_main_v24 (F := Ideal) x0 x1 x2 (ix4 b (Spec.headOf k) s (Spec.coordOf k)) := by
    intro k
    rw [val_main_v26_apply, val_main_v25_apply]
    refine congrArg (val_main_v24 (F := Ideal) x0 x1 x2) (funext fun a => Fin.ext ?_)
    have hb := b.isLt; have hs := s.isLt; have hk := k.isLt
    match a with
    | ⟨0, _⟩ => show ((b.val * 2048 + s.val) * 1024 + k.val) / 2097152 = b.val; omega
    | ⟨1, _⟩ => show ((b.val * 2048 + s.val) * 1024 + k.val) / 64 % 16 = k.val / 64; omega
    | ⟨2, _⟩ => show ((b.val * 2048 + s.val) * 1024 + k.val) / 1024 % 2048 = s.val; omega
    | ⟨3, _⟩ => show ((b.val * 2048 + s.val) * 1024 + k.val) % 64 = k.val % 64; omega
  rw [eb]
  simp only [el, er]
  rfl

/-! ## The whole layer -/

/-- The reference program's result is the specification function. -/
theorem ref_eq_G (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) :
    Cert.ReferenceIdeal.Read.val_main_v30 (F := Ideal) x0 x1 x2 x3 x4 = Cert.Spec.G x0 x1 x2 x3 x4 := by
  rw [v30_eq, v24_eq, v6_eq, v7_eq, v8_eq]
  rfl

end Cert.ReferenceIdeal.RefValue

end
-- ==== Proof.lean ====
/-
  A multi-head attention layer as three kernels, against the same layer written with array operations.

  The kernel program transposes the weights, then runs a projection kernel (query, key and value arrays of sixteen
  heads), an attention kernel (scores scaled by one eighth, each row's maximum subtracted, exponentials divided by their
  sum, times the values) and an output-projection kernel (heads laid side by side, times the output weight, plus the
  bias). The reference computes the same layer on whole arrays, dividing the scores by the square root of 64.

  On the extended reals a change of float format is the identity, a matrix product is the sum over the contracted
  coordinate on both sides, a row maximum is the fold of `max` from the bottom of the order, and dividing by the root of 64
  is multiplying by one eighth. So both programs end with the specification's function of the five arguments
  (Spec.lean), index by index; no entry needs to be finite for that. The word-level kernel's idealization rewrote
  nothing, so there is nothing to preserve; the three frames are the generated ones and the reference's generated run.
-/
import proofs.«127646_j18081812316199_2_alg».proof.Defs
import proofs.«127646_j18081812316199_2_alg».proof.Proof.Gen.Kernel
import proofs.«127646_j18081812316199_2_alg».proof.Proof.Gen.Kernel.Skeleton
import proofs.«127646_j18081812316199_2_alg».proof.Proof.Gen.Kernel.Launch
import proofs.«127646_j18081812316199_2_alg».proof.Proof.Gen.Kernel.Points
import proofs.«127646_j18081812316199_2_alg».proof.Proof.Gen.Kernel.Frame
import proofs.«127646_j18081812316199_2_alg».proof.Proof.Gen.KernelIdeal
import proofs.«127646_j18081812316199_2_alg».proof.Proof.Gen.KernelIdeal.Skeleton
import proofs.«127646_j18081812316199_2_alg».proof.Proof.Gen.KernelIdeal.Launch
import proofs.«127646_j18081812316199_2_alg».proof.Proof.Gen.KernelIdeal.Points
import proofs.«127646_j18081812316199_2_alg».proof.Proof.Gen.KernelIdeal.Frame
import proofs.«127646_j18081812316199_2_alg».proof.Proof.Gen.ReferenceIdeal
import proofs.«127646_j18081812316199_2_alg».proof.Proof.Gen.ReferenceIdeal.Read
import proofs.«127646_j18081812316199_2_alg».proof.Proof.Gen.Pre_finite_inputs
import proofs.«127646_j18081812316199_2_alg».proof.Proof.KernelRun
import proofs.«127646_j18081812316199_2_alg».proof.Proof.Chain
import proofs.«127646_j18081812316199_2_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the layer's function of the arguments: the kernel program's result buffer by the chain of its three
    kernels' arrays, the reference's by its operations read one at a time. -/
theorem algebraic : Cert.algebraic_KernelIdeal_ReferenceIdeal := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Chain.result_eq m ρ c), (h c).2⟩)
      (Cert.KernelIdeal.Whole.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v30_eq, Cert.ReferenceIdeal.RefValue.ref_eq_G,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
